-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x7 : Shape := ⟨2, ![64, 7]⟩
abbrev S7 : Shape := ⟨1, ![7]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x7 : S_.BroadcastsInDim S64x7 (![] : Fin 0 → Fin S64x7.rank)
  reducesTo_S64x7_S_d0_1 : S64x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_v13 : IVec S_ 1) (main_v16 : IVec S64x7 1) : IVec S_ 1 :=
  let main_c_5 : IVec S_ 1 := constantI S_ 1 1#1
  let main_v17 : IVec S_ 1 := (fun x v => Host.reduce IntOp.andi x v reducesTo_S64x7_S_d0_1 h_S_) main_v16 main_c_5
  let main_v18 : IVec S_ 1 := andi main_v13 main_v17
  main_v18

def fn {F : FTy → Type} [FloatOps F] (main_arg0 : FVec F S100000x64 .f32) (main_arg1 : IVec S2x1600000 32) (main_arg2 : FVec F S64x7 .f32) (main_arg3 : FVec F S7 .f32) (main_arg4 : FVec F S64x7 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x7 .f32 := Host.absf main_arg2
  let main_cst_0 : FVec F S_ .f32 := constant S_ .f32 0x7F800000#32
  let main_v5 : FVec F S64x7 .f32 := broadcastInDim S64x7 ![] bcast_S_S64x7 main_cst_0
  let main_v6 : IVec S64x7 1 := cmpf .olt main_v4 main_v5
  let main_c_1 : IVec S_ 1 := constantI S_ 1 1#1
  let main_v7 : IVec S_ 1 := (fun x v => Host.reduce IntOp.andi x v reducesTo_S64x7_S_d0_1 h_S_) main_v6 main_c_1
  let main_v8 : IVec S_ 1 := andi main_v3 main_v7
  let main_v9 : FVec F S7 .f32 := Host.absf main_arg3
  let main_cst_2 : FVec F S_ .f32 := constant S_ .f32 0x7F800000#32
  let main_v10 : FVec F S7 .f32 := broadcastInDim S7 ![] bcast_S_S7 main_cst_2
  let main_v11 : IVec S7 1 := cmpf .olt main_v9 main_v10
  let main_c_3 : IVec S_ 1 := constantI S_ 1 1#1
  let main_v12 : IVec S_ 1 := (fun x v => Host.reduce IntOp.andi x v reducesTo_S7_S_d0 h_S_) main_v11 main_c_3
  let main_v13 : IVec S_ 1 := andi main_v8 main_v12
  let main_v14 : FVec F S64x7 .f32 := Host.absf main_arg4
  let main_cst_4 : FVec F S_ .f32 := constant S_ .f32 0x7F800000#32
  let main_v15 : FVec F S64x7 .f32 := broadcastInDim S64x7 ![] bcast_S_S64x7 main_cst_4
  let main_v16 : IVec S64x7 1 := cmpf .olt main_v14 main_v15
  fn_part1 (F := F) main_v13 main_v16
-- ==== Kernel.lean ====
abbrev S100000x64 : Shape := ⟨2, ![100000, 64]⟩
abbrev S2x1600000 : Shape := ⟨2, ![2, 1600000]⟩
abbrev S64x7 : Shape := ⟨2, ![64, 7]⟩
abbrev S7 : Shape := ⟨1, ![7]⟩
abbrev S1x1600000 : Shape := ⟨2, ![1, 1600000]⟩
abbrev S1600000 : Shape := ⟨1, ![1600000]⟩
abbrev S100000x8 : Shape := ⟨2, ![100000, 8]⟩
abbrev S100000x7 : Shape := ⟨2, ![100000, 7]⟩
abbrev S5000x64 : Shape := ⟨2, ![5000, 64]⟩
abbrev S5000x8 : Shape := ⟨2, ![5000, 8]⟩
abbrev S5000x7 : Shape := ⟨2, ![5000, 7]⟩
abbrev S1x7 : Shape := ⟨2, ![1, 7]⟩
abbrev S5000x1 : Shape := ⟨2, ![5000, 1]⟩
abbrev S_ : Shape := ⟨0, ![]⟩
abbrev S1600000x1 : Shape := ⟨2, ![1600000, 1]⟩
abbrev S1600000x8 : Shape := ⟨2, ![1600000, 8]⟩

abbrev nBuf : Space → Nat
  | .hbm => 25
  | .vmem => 15
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x7, .f32⟩
  | .hbm, ⟨3, _⟩ => ⟨S7, .f32⟩
  | .hbm, ⟨4, _⟩ => ⟨S64x7, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000x8, .f32⟩
  | .hbm, ⟨10, _⟩ => ⟨S100000x7, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x8, .f32⟩
  | .hbm, ⟨20, _⟩ => ⟨S_, .f32⟩
  | .hbm, ⟨21, _⟩ => ⟨S100000x8, .f32⟩
  | .hbm, ⟨22, _⟩ => ⟨S1600000x1, .i32⟩
  | .hbm, ⟨23, _⟩ => ⟨S100000x8, .f32⟩
  | .hbm, ⟨24, _⟩ => ⟨S100000x7, .f32⟩
  | .local _ .vmem, ⟨0, _⟩ => ⟨S5000x64, .f32⟩
  | .local _ .vmem, ⟨1, _⟩ => ⟨S5000x64, .f32⟩
  | .local _ .vmem, ⟨2, _⟩ => ⟨S64x7, .f32⟩
  | .local _ .vmem, ⟨3, _⟩ => ⟨S64x7, .f32⟩
  | .local _ .vmem, ⟨4, _⟩ => ⟨S7, .f32⟩
  | .local _ .vmem, ⟨5, _⟩ => ⟨S5000x8, .f32⟩
  | .local _ .vmem, ⟨6, _⟩ => ⟨S5000x8, .f32⟩
  | .local _ .vmem, ⟨7, _⟩ => ⟨S5000x7, .f32⟩
  | .local _ .vmem, ⟨8, _⟩ => ⟨S5000x7, .f32⟩
  | .local _ .vmem, ⟨9, _⟩ => ⟨S5000x8, .f32⟩
  | .local _ .vmem, ⟨10, _⟩ => ⟨S5000x8, .f32⟩
  | .local _ .vmem, ⟨11, _⟩ => ⟨S5000x7, .f32⟩
  | .local _ .vmem, ⟨12, _⟩ => ⟨S5000x7, .f32⟩
  | .local _ .vmem, ⟨13, _⟩ => ⟨S5000x7, .f32⟩
  | .local _ .vmem, ⟨14, _⟩ => ⟨S5000x7, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x7 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x7 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x7_S64x7_0_0 : ∀ a, (![0, 0] : Fin 2 → Nat) a + S64x7.size a ≤ S64x7.size a
  h_S64x7 : 0 < S64x7.numel
  inb_S7_S7_0 : ∀ a, (![0] : Fin 1 → Nat) a + S7.size a ≤ S7.size a
  h_S7 : 0 < S7.numel
  shapeCasts_S7_S1x7 : S7.ShapeCasts S1x7
  broadcasts_S1x7_S5000x7 : S1x7.Broadcasts S5000x7
  inb_S5000x8_S5000x7_0_0 : ∀ a, (![0, 0] : Fin 2 → Nat) a + S5000x7.size a ≤ S5000x8.size a
  h_S5000x7 : 0 < S5000x7.numel
  inb_S5000x8_S5000x1_0_7 : ∀ a, (![0, 7] : Fin 2 → Nat) a + S5000x1.size a ≤ S5000x8.size a
  h_S5000x1 : 0 < S5000x1.numel
  inb_S5000x7_S5000x7_0_0 : ∀ a, (![0, 0] : Fin 2 → Nat) a + S5000x7.size a ≤ S5000x7.size a
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x8 : S_.BroadcastsInDim S100000x8 (![] : Fin 0 → Fin S100000x8.rank)
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  shapeCasts_S5000x7_S5000x7 : S5000x7.ShapeCasts S5000x7
  slices_S5000x8_o0_7_S5000x1 : S5000x8.Slices ![0, 7] S5000x1
  slices_S5000x8_o0_0_S5000x7 : S5000x8.Slices ![0, 0] S5000x7
  broadcasts_S5000x1_S5000x7 : S5000x1.Broadcasts S5000x7
  dot_S5000x64_S64x7_S5000x7_1_0_0_1_n_n_wf : DotDims.WF S5000x64 S64x7 S5000x7 [1] [0] [0] [1] [] []
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x7.size a ≤ S64x7.size a
  hwx0_1 : ∀ i : grid0.Coords, EltTy.bits .f32 = 32 ∨ (Rect.block (s := S64x7) S64x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x7.size a ≤ S64x7.size a
  hwx0_2 : ∀ i : grid0.Coords, EltTy.bits .f32 = 32 ∨ (Rect.block (s := S64x7) S64x7.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7.size a ≤ S7.size a
  hwx0_3 : ∀ i : grid0.Coords, EltTy.bits .f32 = 32 ∨ (Rect.block (s := S7) S7.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x8.size a ≤ S100000x8.size a
  hwx0_4 : ∀ i : grid0.Coords, EltTy.bits .f32 = 32 ∨ (Rect.block (s := S100000x8) S5000x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x7.size a ≤ S100000x7.size a
  hwx0_5 : ∀ i : grid0.Coords, EltTy.bits .f32 = 32 ∨ (Rect.block (s := S100000x7) S5000x7.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x8.size a ≤ S100000x8.size a
  hwx1_0 : ∀ i : grid1.Coords, EltTy.bits .f32 = 32 ∨ (Rect.block (s := S100000x8) S5000x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x7.size a ≤ S100000x7.size a
  hwx1_1 : ∀ i : grid1.Coords, EltTy.bits .f32 = 32 ∨ (Rect.block (s := S100000x7) S5000x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x7.size a ≤ S100000x7.size a
  hwx1_2 : ∀ i : grid1.Coords, EltTy.bits .f32 = 32 ∨ (Rect.block (s := S100000x7) S5000x7.size (cc1_transform_2 i) (hinb1_2 i)).WholeWords (EltTy.packing .f32)

variable [Facts₀]

def dot_S5000x64_S64x7_S5000x7_1_0_0_1_n_n : DotDims S5000x64 S64x7 S5000x7 where
  lhsContracting := [1]
  rhsContracting := [0]
  lhsNonContracting := [0]
  rhsNonContracting := [1]
  lhsBatch := []
  rhsBatch := []
  wf := dot_S5000x64_S64x7_S5000x7_1_0_0_1_n_n_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x7.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S7.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S5000x8.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S5000x7.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v14) S5000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S5000x7.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x7 : Shape := ⟨2, ![64, 7]⟩
abbrev S7 : Shape := ⟨1, ![7]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x7 : Shape := ⟨2, ![100000, 7]⟩
abbrev S1x7 : Shape := ⟨2, ![1, 7]⟩

abbrev nBuf : Space → Nat
  | .hbm => 43
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x7, .f32⟩
  | .hbm, ⟨3, _⟩ => ⟨S7, .f32⟩
  | .hbm, ⟨4, _⟩ => ⟨S64x7, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S100000x7, .f32⟩
  | .hbm, ⟨35, _⟩ => ⟨S1x7, .f32⟩
  | .hbm, ⟨36, _⟩ => ⟨S100000x7, .f32⟩
  | .hbm, ⟨37, _⟩ => ⟨S100000x7, .f32⟩
  | .hbm, ⟨38, _⟩ => ⟨S100000x7, .f32⟩
  | .hbm, ⟨39, _⟩ => ⟨S100000x7, .f32⟩
  | .hbm, ⟨40, _⟩ => ⟨S_, .f32⟩
  | .hbm, ⟨41, _⟩ => ⟨S100000x7, .f32⟩
  | .hbm, ⟨42, _⟩ => ⟨S100000x7, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_v0 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  bcast_S_S100000x7 : S_.BroadcastsInDim S100000x7 (![] : Fin 0 → Fin S100000x7.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x7_S100000x7_1_0_0_1_n_n_wf : DotDims.WF S100000x64 S64x7 S100000x7 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x7_S100000x7_1_0_0_1_n_n : DotDims S100000x64 S64x7 S100000x7 where
  lhsContracting := [1]
  rhsContracting := [0]
  lhsNonContracting := [0]
  rhsNonContracting := [1]
  lhsBatch := []
  rhsBatch := []
  wf := dot_S100000x64_S64x7_S100000x7_1_0_0_1_n_n_wf

class Facts : Prop extends Facts₀ where

variable [Facts]
-- ==== Proof.RunMain.lean ====
/-
  The idealized kernel's run, with its result named.

  @main is four segments: a stretch of host operations (the two rows of the edge list), the projection region, a second
  stretch (the gather of projected rows along the source row numbers and their scatter-add along the destination row
  numbers) and the finishing region. The buffer contents at the boundaries are a fold through the segments, and after the
  last one every unscoped buffer holds the last boundary's contents. The frame claim reads the argument buffers there;
  here the result buffer is read there as well: every weakly fair execution ends with the result at the last boundary's
  contents of its buffer, the arguments unchanged.
-/
import proofs.«179598_j41188736369203_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, the result buffer at the last boundary's contents
    and the arguments as launched. -/
theorem run_main : θ_run defs (onTc (τ := τ) (main (F := F))) ⟨m, fun _ => 0, ρ⟩ (fun r => ∀ c : Dev nD,
      r.2.mem ((c.tc : Thread nD τ).loc main_v15) = W4 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v15 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.RunValue

end
-- ==== Proof.LibCanonUnit.lean ====
/-
  What a list of stores leaves, read one store at a time, newest first.

  The contents a list of unmasked stores leaves in a buffer depend on the pieces alone: at each index the payload of
  the newest piece whose rectangle holds the index. For a unit-stride rectangle at offsets `off` with extents `size`
  an index `y` lies in the rectangle exactly when `off a ≤ y a < off a + size a` on every axis, and its position
  inside is `y - off`. So under the newest piece the contents are that piece's payload at `y - off`, and off it (on
  some axis the coordinate misses the span) they are what the older pieces left.
-/
import Idealize.ShloMosaic.Lib.Pipeline.FrameBody

noncomputable section

namespace Cert.LibCanonUnit

open Idealize.ShloMosaic

variable {s : Shape} {e : EltTy} {Val : EltTy → Type} [∀ e, Nonempty (Val e)]

/-- An index at position `x` of the newest piece's unit-stride rectangle holds that piece's payload at `x`. -/
theorem canon_cons_unit_of_mem {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb (Rect.unit off size inb) w L x

/-- An index that misses the newest piece's unit-stride rectangle on axis `a` holds what the older pieces left. -/
theorem canon_cons_unit_of_not_mem {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    View.canon ((⟨Rect.unit off size inb, w⟩ : View.Piece Val s e) :: L) y = View.canon L y := by
  refine View.canon_cons_of_not_mem _ L ?_
  show y ∉ (Rect.unit off size inb).set
  rw [Rect.mem_set_unit]
  intro hall
  have := hall a
  omega

/-- Where a load through a unit-stride rectangle reads: position `x` inside the rectangle is index `off + x`. -/
theorem unit_idx_eq {off size : Fin s.rank → ℕ} (inb : ∀ a, off a + size a ≤ s.size a)
    (x : (Rect.unit off size inb).shape.Idx) (y : s.Idx) (hx : ∀ a, (y a).val = off a + (x a).val) :
    (Rect.unit off size inb).toLoadRect.idx x = y :=
  funext fun a => Fin.ext (by
    show off a + 1 * (x a).val = (y a).val
    rw [hx a, Nat.one_mul])

end Cert.LibCanonUnit

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.Project.lean ====
/-
  The projection region, as functions of the arrays it reads.

  Its body takes a block of 5000 rows of `x : [100000, 64]` and the whole of `Wl, Wr : [64, 7]` and `b : [7]`. Into the
  first output it stores the product `x · Wl` in columns 0 … 6 and the number one in column 7 (two stores: a
  5000 × 7 rectangle at the origin, then a 5000 × 1 rectangle at column 7, which together tile the 5000 × 8 block);
  into the second output it stores `x · Wr + b`. A matrix product into a zero accumulator is, entry by entry, the
  row-by-column sum. Grid point `t` handles rows `5000·t … 5000·t + 4999`, and the twenty points cover the array.
-/
import proofs.«179598_j41188736369203_2_alg».proof.Proof.Gen.KernelIdeal.Frame
import proofs.«179598_j41188736369203_2_alg».proof.Proof.LibCanonUnit
import proofs.«179598_j41188736369203_2_alg».proof.Proof.LibDense
import Idealize.ShloMosaic.Lib.ValueIdx
import Idealize.ShloMosaic.Lib.Pipeline.Value

set_option maxRecDepth 16384

noncomputable section

namespace Cert.KernelIdeal.Project

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The rows projected by `Wl`, with a column of ones appended: columns 0 … 6 the product, column 7 the number one. -/
def projAug {n : ℕ} (x : (⟨2, ![n, 64]⟩ : Shape).Idx → EReal) (wl : (⟨2, ![64, 7]⟩ : Shape).Idx → EReal) :
    (⟨2, ![n, 8]⟩ : Shape).Idx → EReal :=
  fun i => if h : (i 1).val < 7 then Cert.LibDense.prod x wl (ix2 (i 0) (⟨(i 1).val, h⟩ : Fin 7)) else Ideal.ofBits .f32 0x3F800000#32

/-- The branch that needs no aggregation: the rows projected by `Wr`, plus the bias. -/
def branch {n : ℕ} (x : (⟨2, ![n, 64]⟩ : Shape).Idx → EReal) (wr : (⟨2, ![64, 7]⟩ : Shape).Idx → EReal)
    (b : (⟨1, ![7]⟩ : Shape).Idx → EReal) : (⟨2, ![n, 7]⟩ : Shape).Idx → EReal :=
  fun i => Cert.LibDense.prod x wr i + b (ix1 (i 1))

theorem hz : (![0, 0] : Fin 2 → Nat) = fun _ => 0 := funext fun a => by fin_cases a <;> rfl
theorem hz1 : (![0] : Fin 1 → Nat) = fun _ => 0 := funext fun a => by fin_cases a; rfl

section Body
variable {F : FTy → Type} [FloatOps F]

/-- The second output's block after the body: its one store's payload of the loaded blocks. -/
theorem out5_eq (c : Dev nD) (i : grid0.Coords) (arg1 : Memref sig .tc .vmem S5000x64 .f32) (harg1 : arg1.IsWhole) (arg2 : Memref sig .tc .vmem S64x7 .f32) (harg2 : arg2.IsWhole) (arg3 : Memref sig .tc .vmem S64x7 .f32) (harg3 : arg3.IsWhole) (arg4 : Memref sig .tc .vmem S7 .f32) (harg4 : arg4.IsWhole) (arg5 : Memref sig .tc .vmem S5000x8 .f32) (harg5 : arg5.IsWhole) (arg6 : Memref sig .tc .vmem S5000x7 .f32) (harg6 : arg6.IsWhole)
    (x0 : Vec F S5000x64 .f32) (x1 : Vec F S64x7 .f32) (x2 : Vec F S64x7 .f32) (x3 : Vec F S7 .f32) :
    out0_A_5 c i arg1 harg1 arg2 harg2 arg3 harg3 arg4 harg4 arg5 harg5 arg6 harg6 x0 x1 x2 x3 = k0_pay3 x0 x2 x3 := by
  unfold out0_A_5
  rw [View.read_writes_eq_canon _ _ _ (cover0_A_5 c i arg1 harg1 arg2 harg2 arg3 harg3 arg4 harg4 arg5 harg5 arg6 harg6 x0 x1 x2 x3)]
  unfold kernelRun0_A
  dsimp only
  rw [View.canon_unit_zero hz]
  simp only [View.readAt_eq_ld, harg1.read_unread, harg3.read_unread, harg4.read_unread,
    View.ld_unit_zero (S := S5000x64) hz, View.ld_unit_zero (S := S64x7) hz, View.ld_unit_zero (S := S7) hz1]

/-- The first output's block after the body, at a column below 7: the older store's payload (the newer one misses it). -/
theorem out4_proj (c : Dev nD) (i : grid0.Coords) (arg1 : Memref sig .tc .vmem S5000x64 .f32) (harg1 : arg1.IsWhole) (arg2 : Memref sig .tc .vmem S64x7 .f32) (harg2 : arg2.IsWhole) (arg3 : Memref sig .tc .vmem S64x7 .f32) (harg3 : arg3.IsWhole) (arg4 : Memref sig .tc .vmem S7 .f32) (harg4 : arg4.IsWhole) (arg5 : Memref sig .tc .vmem S5000x8 .f32) (harg5 : arg5.IsWhole) (arg6 : Memref sig .tc .vmem S5000x7 .f32) (harg6 : arg6.IsWhole)
    (x0 : Vec F S5000x64 .f32) (x1 : Vec F S64x7 .f32) (x2 : Vec F S64x7 .f32) (x3 : Vec F S7 .f32) (p : Fin 5000) (q : Fin 7) :
    out0_A_4 c i arg1 harg1 arg2 harg2 arg3 harg3 arg4 harg4 arg5 harg5 arg6 harg6 x0 x1 x2 x3 (ix2 p (⟨q.val, Nat.lt_of_lt_of_le q.isLt (by decide)⟩ : Fin 8)) = k0_pay2 x0 x1 (ix2 p q) := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  rw [Cert.LibCanonUnit.canon_cons_unit_of_not_mem _ _ _ _ (1 : Fin 2) (Or.inl (by show q.val < 7; exact q.isLt))]
  rw [Cert.LibCanonUnit.canon_cons_unit_of_mem _ _ [] _ (ix2 p q) (fun a => match a with
    | ⟨0, _⟩ => by show p.val = 0 + p.val; omega
    | ⟨1, _⟩ => by show q.val = 0 + q.val; omega)]
  simp only [View.readAt_eq_ld, harg1.read_unread, harg2.read_unread,
    View.ld_unit_zero (S := S5000x64) hz, View.ld_unit_zero (S := S64x7) hz]

/-- The first output's block after the body, at column 7: the newer store's payload. -/
theorem out4_one (c : Dev nD) (i : grid0.Coords) (arg1 : Memref sig .tc .vmem S5000x64 .f32) (harg1 : arg1.IsWhole) (arg2 : Memref sig .tc .vmem S64x7 .f32) (harg2 : arg2.IsWhole) (arg3 : Memref sig .tc .vmem S64x7 .f32) (harg3 : arg3.IsWhole) (arg4 : Memref sig .tc .vmem S7 .f32) (harg4 : arg4.IsWhole) (arg5 : Memref sig .tc .vmem S5000x8 .f32) (harg5 : arg5.IsWhole) (arg6 : Memref sig .tc .vmem S5000x7 .f32) (harg6 : arg6.IsWhole)
    (x0 : Vec F S5000x64 .f32) (x1 : Vec F S64x7 .f32) (x2 : Vec F S64x7 .f32) (x3 : Vec F S7 .f32) (p : Fin 5000) :
    out0_A_4 c i arg1 harg1 arg2 harg2 arg3 harg3 arg4 harg4 arg5 harg5 arg6 harg6 x0 x1 x2 x3 (ix2 p (7 : Fin 8)) = k0_pay4 (F := F) (ix2 p (0 : Fin 1)) := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  exact Cert.LibCanonUnit.canon_cons_unit_of_mem _ _ _ (ix2 p (7 : Fin 8)) (ix2 p (0 : Fin 1)) (fun a => match a with
    | ⟨0, _⟩ => by show p.val = 0 + p.val; omega
    | ⟨1, _⟩ => by show (7 : ℕ) = 7 + 0; rfl)

end Body

/-! ## The payloads at an index, on the extended reals -/

/-- The product into a zero accumulator, at row `p` and column `q`: the row-by-column sum. -/
theorem pay2_apply (x0 : Vec Ideal S5000x64 .f32) (x1 : Vec Ideal S64x7 .f32) (p : Fin 5000) (q : Fin 7) :
    k0_pay2 (F := Ideal) x0 x1 (ix2 p q) = Cert.LibDense.prod x0 x1 (ix2 p q) :=
  Cert.LibDense.matmul_plain (φ₁ := .bf16) (φ₂ := .bf16) x0 x1 (ix2 p q)

/-- The product plus the bias row, at row `p` and column `q`. -/
theorem pay3_apply (x0 : Vec Ideal S5000x64 .f32) (x2 : Vec Ideal S64x7 .f32) (x3 : Vec Ideal S7 .f32) (p : Fin 5000) (q : Fin 7) :
    k0_pay3 (F := Ideal) x0 x2 x3 (ix2 p q) = Cert.LibDense.prod x0 x2 (ix2 p q) + x3 (ix1 q) := by
  unfold k0_pay3
  show FloatOps.matmul (F := Ideal) _ none _ _ _ (ix2 p q) + broadcastTo S5000x7 (shapeCast S1x7 x3 Facts₀.shapeCasts_S7_S1x7) Facts₀.broadcasts_S1x7_S5000x7 (ix2 p q) = _
  rw [Cert.LibDense.bias_row x3 Facts₀.shapeCasts_S7_S1x7 Facts₀.broadcasts_S1x7_S5000x7 (ix2 p q)]
  exact congrArg (· + x3 (ix1 q)) (Cert.LibDense.matmul_plain (φ₁ := .bf16) (φ₂ := .bf16) x0 x2 (ix2 p q))

/-- The first output's block at row `p`, column `col`: the product below column 7, the number one at column 7. -/
theorem blk4_apply (c : Dev nD) (i : grid0.Coords) (arg1 : Memref sig .tc .vmem S5000x64 .f32) (harg1 : arg1.IsWhole) (arg2 : Memref sig .tc .vmem S64x7 .f32) (harg2 : arg2.IsWhole) (arg3 : Memref sig .tc .vmem S64x7 .f32) (harg3 : arg3.IsWhole) (arg4 : Memref sig .tc .vmem S7 .f32) (harg4 : arg4.IsWhole) (arg5 : Memref sig .tc .vmem S5000x8 .f32) (harg5 : arg5.IsWhole) (arg6 : Memref sig .tc .vmem S5000x7 .f32) (harg6 : arg6.IsWhole)
    (x0 : Vec Ideal S5000x64 .f32) (x1 : Vec Ideal S64x7 .f32) (x2 : Vec Ideal S64x7 .f32) (x3 : Vec Ideal S7 .f32) (p : Fin 5000) (col : Fin 8) :
    out0_A_4 (F := Ideal) c i arg1 harg1 arg2 harg2 arg3 harg3 arg4 harg4 arg5 harg5 arg6 harg6 x0 x1 x2 x3 (ix2 p col)
      = if h : col.val < 7 then Cert.LibDense.prod x0 x1 (ix2 p (⟨col.val, h⟩ : Fin 7)) else Ideal.ofBits .f32 0x3F800000#32 := by
  by_cases h : col.val < 7
  · rw [dif_pos h]
    exact (out4_proj c i arg1 harg1 arg2 harg2 arg3 harg3 arg4 harg4 arg5 harg5 arg6 harg6 x0 x1 x2 x3 p ⟨col.val, h⟩).trans (pay2_apply x0 x1 p ⟨col.val, h⟩)
  · rw [dif_neg h]
    obtain rfl : col = (7 : Fin 8) := Fin.ext (by have := col.isLt; show col.val = 7; omega)
    exact (out4_one c i arg1 harg1 arg2 harg2 arg3 harg3 arg4 harg4 arg5 harg5 arg6 harg6 x0 x1 x2 x3 p).trans rfl

section Region
variable (V : (c : Dev nD) → (b : Ref sig .tc) → Buf (Elt Ideal) ((c : Thread nD τ).loc b))

/-- At point `t` the row window and both outputs hold block `t` of their rows; the weights and the bias are whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- What point `t` writes back through the first output is block `t` of the augmented projection. -/
theorem flushed4_eq (c : Dev nD) (t : Fin cfg0.N) :
    (dat0 V c).flushed 4 t = ((cfg0.win 4).blk t).view.read (Elt Ideal) (projAug (V c main_arg0) (V c main_arg2)) := by
  show (cfg0.win 4).cut (grid0.coords t) ((dat0 V c).after 4 t) = _
  rw [after0_4]
  unfold outsAt0
  dsimp only
  obtain ⟨e00, e01, e10, e11, e20, e21, e30, e40, e41, e50, e51⟩ := idx_facts t
  funext j
  obtain ⟨p, col, rfl⟩ : ∃ (p : Fin 5000) (col : Fin 8), j = ix2 p col := ⟨j 0, j 1, eq_ix2 j⟩
  refine (blk4_apply c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t) (iblk0 V c 3 t) p col).trans ?_
  show _ = projAug (V c main_arg0) (V c main_arg2) (((cfg0.win 4).blk t).view.emb (ix2 p col))
  unfold projAug
  have hcol : ((((cfg0.win 4).blk t).view.emb (ix2 p col)) 1).val = col.val := by
    show win0_4.index t (1 : Fin 2) * 8 + 1 * col.val = col.val; omega
  by_cases h : col.val < 7
  · rw [dif_pos h, dif_pos (hcol.trans_lt h)]
    unfold Cert.LibDense.prod
    refine Finset.sum_congr rfl fun k _ => ?_
    have h0 : ((cfg0.win 0).blk t).view.emb (ix2 p k) = ix2 ((((cfg0.win 4).blk t).view.emb (ix2 p col)) 0) k := by
      funext a; apply Fin.ext
      match a with
      | ⟨0, _⟩ => show win0_0.index t (0 : Fin 2) * 5000 + 1 * p.val = win0_4.index t (0 : Fin 2) * 5000 + 1 * p.val; omega
      | ⟨1, _⟩ => show win0_0.index t (1 : Fin 2) * 64 + 1 * k.val = k.val; omega
    have h1 : ((cfg0.win 1).blk t).view.emb (ix2 k (⟨col.val, h⟩ : Fin 7))
        = ix2 k (⟨((((cfg0.win 4).blk t).view.emb (ix2 p col)) 1).val, hcol.trans_lt h⟩ : Fin 7) := by
      funext a; apply Fin.ext
      match a with
      | ⟨0, _⟩ => show win0_1.index t (0 : Fin 2) * 64 + 1 * k.val = k.val; omega
      | ⟨1, _⟩ => show win0_1.index t (1 : Fin 2) * 7 + 1 * col.val = win0_4.index t (1 : Fin 2) * 8 + 1 * col.val; omega
    exact congrArg₂ (· * ·) (congrArg (V c main_arg0) h0) (congrArg (V c main_arg2) h1)
  · rw [dif_neg h, dif_neg (by rw [hcol]; exact h)]

/-- What point `t` writes back through the second output is block `t` of the branch. -/
theorem flushed5_eq (c : Dev nD) (t : Fin cfg0.N) :
    (dat0 V c).flushed 5 t = ((cfg0.win 5).blk t).view.read (Elt Ideal) (branch (V c main_arg0) (V c main_arg4) (V c main_arg3)) := by
  show (cfg0.win 5).cut (grid0.coords t) ((dat0 V c).after 5 t) = _
  rw [after0_5]
  unfold outsAt0
  dsimp only
  rw [out5_eq]
  obtain ⟨e00, e01, e10, e11, e20, e21, e30, e40, e41, e50, e51⟩ := idx_facts t
  funext j
  obtain ⟨p, q, rfl⟩ : ∃ (p : Fin 5000) (q : Fin 7), j = ix2 p q := ⟨j 0, j 1, eq_ix2 j⟩
  refine (pay3_apply (iblk0 V c 0 t) (iblk0 V c 2 t) (iblk0 V c 3 t) p q).trans ?_
  show _ = branch (V c main_arg0) (V c main_arg4) (V c main_arg3) (((cfg0.win 5).blk t).view.emb (ix2 p q))
  unfold branch Cert.LibDense.prod
  have hb : ((cfg0.win 3).blk t).view.emb (ix1 q) = ix1 ((((cfg0.win 5).blk t).view.emb (ix2 p q)) 1) := by
    funext a; apply Fin.ext
    match a with
    | ⟨0, _⟩ => show win0_3.index t (0 : Fin 1) * 7 + 1 * q.val = win0_5.index t (1 : Fin 2) * 7 + 1 * q.val; omega
  refine congrArg₂ (· + ·) (Finset.sum_congr rfl fun k _ => ?_) (congrArg (V c main_arg3) hb)
  have h0 : ((cfg0.win 0).blk t).view.emb (ix2 p k) = ix2 ((((cfg0.win 5).blk t).view.emb (ix2 p q)) 0) k := by
    funext a; apply Fin.ext
    match a with
    | ⟨0, _⟩ => show win0_0.index t (0 : Fin 2) * 5000 + 1 * p.val = win0_5.index t (0 : Fin 2) * 5000 + 1 * p.val; omega
    | ⟨1, _⟩ => show win0_0.index t (1 : Fin 2) * 64 + 1 * k.val = k.val; omega
  have h2 : ((cfg0.win 2).blk t).view.emb (ix2 k q) = ix2 k ((((cfg0.win 5).blk t).view.emb (ix2 p q)) 1) := by
    funext a; apply Fin.ext
    match a with
    | ⟨0, _⟩ => show win0_2.index t (0 : Fin 2) * 64 + 1 * k.val = k.val; omega
    | ⟨1, _⟩ => show win0_2.index t (1 : Fin 2) * 7 + 1 * q.val = win0_5.index t (1 : Fin 2) * 7 + 1 * q.val; omega
  exact congrArg₂ (· * ·) (congrArg (V c main_arg0) h0) (congrArg (V c main_arg4) h2)

theorem mem_blk4 (t : Fin cfg0.N) (i : S100000x8.Idx) :
    i ∈ ((cfg0.win 4).blk t).view.set ↔ ∀ a : Fin 2, win0_4.index t a * S5000x8.size a ≤ (i a).val ∧ (i a).val < win0_4.index t a * S5000x8.size a + S5000x8.size a := by
  show i ∈ ((View.whole main_v4_0).slice (win0_4.rect t)).set ↔ _
  rw [View.set_slice_whole, Rect.mem_set_unit]
  exact Iff.rfl

theorem mem_blk5 (t : Fin cfg0.N) (i : S100000x7.Idx) :
    i ∈ ((cfg0.win 5).blk t).view.set ↔ ∀ a : Fin 2, win0_5.index t a * S5000x7.size a ≤ (i a).val ∧ (i a).val < win0_5.index t a * S5000x7.size a + S5000x7.size a := by
  show i ∈ ((View.whole main_v4_1).slice (win0_5.rect t)).set ↔ _
  rw [View.set_slice_whole, Rect.mem_set_unit]
  exact Iff.rfl

/-- Every row of the first output is in the block of the point its row number divided by 5000 names. -/
theorem cover4 (i : S100000x8.Idx) : ∃ t : Fin cfg0.N, (cfg0.win 4).flush t = true ∧ i ∈ ((cfg0.win 4).blk t).view.set := by
  have hi0 : (i 0).val < 100000 := (i 0).isLt
  have hi1 : (i 1).val < 8 := (i 1).isLt
  refine ⟨⟨(i 0).val / 5000, by show (i 0).val / 5000 < 20; omega⟩, flush0_4 _, ?_⟩
  rw [mem_blk4]
  obtain ⟨-, -, -, -, -, -, -, e40, e41, -, -⟩ := idx_facts ⟨(i 0).val / 5000, by show (i 0).val / 5000 < 20; omega⟩
  intro a
  match a with
  | ⟨0, _⟩ =>
    show win0_4.index _ (0 : Fin 2) * 5000 ≤ (i 0).val ∧ (i 0).val < win0_4.index _ (0 : Fin 2) * 5000 + 5000
    rw [e40]; show (i 0).val / 5000 * 5000 ≤ (i 0).val ∧ (i 0).val < (i 0).val / 5000 * 5000 + 5000; omega
  | ⟨1, _⟩ =>
    show win0_4.index _ (1 : Fin 2) * 8 ≤ (i 1).val ∧ (i 1).val < win0_4.index _ (1 : Fin 2) * 8 + 8
    rw [e41]; omega

/-- The same for the second output. -/
theorem cover5 (i : S100000x7.Idx) : ∃ t : Fin cfg0.N, (cfg0.win 5).flush t = true ∧ i ∈ ((cfg0.win 5).blk t).view.set := by
  have hi0 : (i 0).val < 100000 := (i 0).isLt
  have hi1 : (i 1).val < 7 := (i 1).isLt
  refine ⟨⟨(i 0).val / 5000, by show (i 0).val / 5000 < 20; omega⟩, flush0_5 _, ?_⟩
  rw [mem_blk5]
  obtain ⟨-, -, -, -, -, -, -, -, -, e50, e51⟩ := idx_facts ⟨(i 0).val / 5000, by show (i 0).val / 5000 < 20; omega⟩
  intro a
  match a with
  | ⟨0, _⟩ =>
    show win0_5.index _ (0 : Fin 2) * 5000 ≤ (i 0).val ∧ (i 0).val < win0_5.index _ (0 : Fin 2) * 5000 + 5000
    rw [e50]; show (i 0).val / 5000 * 5000 ≤ (i 0).val ∧ (i 0).val < (i 0).val / 5000 * 5000 + 5000; omega
  | ⟨1, _⟩ =>
    show win0_5.index _ (1 : Fin 2) * 7 ≤ (i 1).val ∧ (i 1).val < win0_5.index _ (1 : Fin 2) * 7 + 7
    rw [e51]; omega

/-- The first output array after the region: the augmented projection of the rows and `Wl` as the region finds them. -/
theorem final4 (c : Dev nD) : (dat0 V c).arrAt 4 cfg0.N = projAug (V c main_arg0) (V c main_arg2) :=
  (dat0 V c).arrAt_eq_of_cover 4 (projAug (V c main_arg0) (V c main_arg2)) (fun t _ => flushed4_eq V c t) cover4

/-- The second output array after the region: the branch of the rows, `Wr` and the bias as the region finds them. -/
theorem final5 (c : Dev nD) : (dat0 V c).arrAt 5 cfg0.N = branch (V c main_arg0) (V c main_arg4) (V c main_arg3) :=
  (dat0 V c).arrAt_eq_of_cover 5 (branch (V c main_arg0) (V c main_arg4) (V c main_arg3)) (fun t _ => flushed5_eq V c t) cover5

end Region

end Cert.KernelIdeal.Project

end
-- ==== Proof.Finish.lean ====
/-
  The finishing region, as one function of the two arrays it reads.

  Its body takes a block of 5000 rows of the aggregated array `a : [100000, 8]` (seven projected sums and, in the last
  column, the count) and the same rows of the branch `r : [100000, 7]`, and stores, at row `p` and column `q`,
  `max (a (p, q) / max (a (p, 7), 1) + r (p, q), 0)`. Grid point `t` handles rows `5000·t … 5000·t + 4999` of all three
  windows, and the twenty points cover the hundred thousand rows: the output array ends as that function of the whole
  arrays, row by row, whatever the region's entry contents are.
-/
import proofs.«179598_j41188736369203_2_alg».proof.Proof.Gen.KernelIdeal.Frame
import Idealize.ShloMosaic.Lib.ValueIdx
import Idealize.ShloMosaic.Lib.Pipeline.Value

set_option maxRecDepth 16384

noncomputable section

namespace Cert.KernelIdeal.Finish

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Column `q` of the seven projected columns, as a column of the eight. -/
abbrev col8 (q : Fin 7) : Fin 8 := ⟨q.val, Nat.lt_of_lt_of_le q.isLt (by decide)⟩

/-- The finishing stage on whole arrays: the projected sum over the count (at least one), plus the branch, rectified. -/
def finish {n : ℕ} (a : (⟨2, ![n, 8]⟩ : Shape).Idx → EReal) (r : (⟨2, ![n, 7]⟩ : Shape).Idx → EReal) :
    (⟨2, ![n, 7]⟩ : Shape).Idx → EReal :=
  fun i => max (Ideal.div (a (ix2 (i 0) (col8 (i 1)))) (max (a (ix2 (i 0) (7 : Fin 8))) (Ideal.ofBits .f32 0x3F800000#32)) + r i)
    (Ideal.ofBits .f32 0x00000000#32)

theorem hz : (![0, 0] : Fin 2 → Nat) = fun _ => 0 := funext fun a => by fin_cases a <;> rfl

/-- The body's stored value at row `p`, column `q` of the block, from the two loaded blocks. -/
theorem pay_apply (x0 : Vec Ideal S5000x8 .f32) (x2 : Vec Ideal S5000x7 .f32) (p : Fin 5000) (q : Fin 7) :
    k1_pay1 (F := Ideal) x0 x2 (ix2 p q)
      = max (Ideal.div (x0 (ix2 p (col8 q))) (max (x0 (ix2 p (7 : Fin 8))) (Ideal.ofBits .f32 0x3F800000#32)) + x2 (ix2 p q))
          (Ideal.ofBits .f32 0x00000000#32) := by
  unfold k1_pay1
  simp only [shapeCast_self]
  show max (Ideal.div (extractStridedSlice S5000x7 ![0, 0] x0 Facts₀.slices_S5000x8_o0_0_S5000x7 (ix2 p q))
      (broadcastTo S5000x7 (maximumf (extractStridedSlice S5000x1 ![0, 7] x0 Facts₀.slices_S5000x8_o0_7_S5000x1)
        (broadcast S5000x1 (Scalar.ofBits (F := Ideal) .f32 0x3F800000#32))) Facts₀.broadcasts_S5000x1_S5000x7 (ix2 p q)) + x2 (ix2 p q)) _ = _
  rw [extractStridedSlice_apply ![0, 0] x0 Facts₀.slices_S5000x8_o0_0_S5000x7 (ix2 p q) (ix2 p (col8 q))
      (fun a => match a with
        | ⟨0, _⟩ => by show p.val = 0 + p.val; omega
        | ⟨1, _⟩ => by show q.val = 0 + q.val; omega),
    broadcastTo_apply _ Facts₀.broadcasts_S5000x1_S5000x7 (ix2 p q) (ix2 p (0 : Fin 1))
      (fun a => match a with
        | ⟨0, _⟩ => by show p.val = if (5000 : ℕ) = 1 then 0 else p.val; rw [if_neg (by decide)]
        | ⟨1, _⟩ => by show (0 : ℕ) = if (1 : ℕ) = 1 then 0 else q.val; rw [if_pos rfl])]
  show max (Ideal.div _ (max (extractStridedSlice S5000x1 ![0, 7] x0 Facts₀.slices_S5000x8_o0_7_S5000x1 (ix2 p (0 : Fin 1))) _) + _) _ = _
  rw [extractStridedSlice_apply ![0, 7] x0 Facts₀.slices_S5000x8_o0_7_S5000x1 (ix2 p (0 : Fin 1)) (ix2 p (7 : Fin 8))
      (fun a => match a with
        | ⟨0, _⟩ => by show p.val = 0 + p.val; omega
        | ⟨1, _⟩ => by show (7 : ℕ) = 7 + 0; rfl)]
  rfl

section Region
variable (V : (c : Dev nD) → (b : Ref sig .tc) → Buf (Elt Ideal) ((c : Thread nD τ).loc b))

/-- The three windows move together: at point `t` each holds block `t` of its rows and the one block of its columns. -/
theorem idx_facts : ∀ t : Fin cfg1.N, win1_0.index t (0 : Fin 2) = win1_2.index t (0 : Fin 2)
    ∧ win1_0.index t (1 : Fin 2) = 0 ∧ win1_1.index t (0 : Fin 2) = win1_2.index t (0 : Fin 2)
    ∧ win1_1.index t (1 : Fin 2) = 0 ∧ win1_2.index t (1 : Fin 2) = 0 ∧ win1_2.index t (0 : Fin 2) = t.val :=
  (by decide +kernel : ∀ t : Fin grid1.N, _)

/-- What point `t` writes back is block `t` of the finishing stage of the two arrays as the region finds them. -/
theorem flushed_eq (c : Dev nD) (t : Fin cfg1.N) :
    (dat1 V c).flushed 2 t = ((cfg1.win 2).blk t).view.read (Elt Ideal) (finish (V c main_v14) (V c main_v4_1)) := by
  show (cfg1.win 2).cut (grid1.coords t) ((dat1 V c).after 2 t) = _
  rw [after1_2]
  unfold out1_2
  rw [View.canon_unit_zero hz]
  simp only [View.ld_unit_zero (S := S5000x8) hz, View.ld_unit_zero (S := S5000x7) hz]
  obtain ⟨e0, e1, e2, e3, e4, e5⟩ := idx_facts t
  funext j
  obtain ⟨p, q, rfl⟩ : ∃ (p : Fin 5000) (q : Fin 7), j = ix2 p q := ⟨j 0, j 1, eq_ix2 j⟩
  refine (pay_apply (iblk1 V c 0 t) (iblk1 V c 1 t) p q).trans ?_
  show max (Ideal.div (V c main_v14 (((cfg1.win 0).blk t).view.emb (ix2 p (col8 q))))
        (max (V c main_v14 (((cfg1.win 0).blk t).view.emb (ix2 p (7 : Fin 8)))) _) + V c main_v4_1 (((cfg1.win 1).blk t).view.emb (ix2 p q))) _
    = max (Ideal.div (V c main_v14 (ix2 ((((cfg1.win 2).blk t).view.emb (ix2 p q)) 0) (col8 ((((cfg1.win 2).blk t).view.emb (ix2 p q)) 1))))
        (max (V c main_v14 (ix2 ((((cfg1.win 2).blk t).view.emb (ix2 p q)) 0) (7 : Fin 8))) _) + V c main_v4_1 (((cfg1.win 2).blk t).view.emb (ix2 p q))) _
  have h0 : ((cfg1.win 0).blk t).view.emb (ix2 p (col8 q))
      = ix2 ((((cfg1.win 2).blk t).view.emb (ix2 p q)) 0) (col8 ((((cfg1.win 2).blk t).view.emb (ix2 p q)) 1)) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 8 + 1 * q.val = win1_2.index t (1 : Fin 2) * 7 + 1 * q.val; omega
  have h1 : ((cfg1.win 0).blk t).view.emb (ix2 p (7 : Fin 8))
      = ix2 ((((cfg1.win 2).blk t).view.emb (ix2 p q)) 0) (7 : Fin 8) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 8 + 1 * 7 = 7; omega
  have h2 : ((cfg1.win 1).blk t).view.emb (ix2 p q) = ((cfg1.win 2).blk t).view.emb (ix2 p q) := by
    funext a; apply Fin.ext
    match a with
    | ⟨0, _⟩ => show win1_1.index t (0 : Fin 2) * 5000 + 1 * p.val = win1_2.index t (0 : Fin 2) * 5000 + 1 * p.val; omega
    | ⟨1, _⟩ => show win1_1.index t (1 : Fin 2) * 7 + 1 * q.val = win1_2.index t (1 : Fin 2) * 7 + 1 * q.val; omega
  rw [h0, h1, h2]
  rfl

/-- An index of the output array is in point `t`'s block iff its row is among the block's 5000 and its column among the seven. -/
theorem mem_blk (t : Fin cfg1.N) (i : S100000x7.Idx) :
    i ∈ ((cfg1.win 2).blk t).view.set ↔ ∀ a : Fin 2, win1_2.index t a * S5000x7.size a ≤ (i a).val ∧ (i a).val < win1_2.index t a * S5000x7.size a + S5000x7.size a := by
  show i ∈ ((View.whole main_v15).slice (win1_2.rect t)).set ↔ _
  rw [View.set_slice_whole, Rect.mem_set_unit]
  exact Iff.rfl

/-- Every row of the output array is in the block of the point that its row number divided by 5000 names. -/
theorem cover (i : S100000x7.Idx) : ∃ t : Fin cfg1.N, (cfg1.win 2).flush t = true ∧ i ∈ ((cfg1.win 2).blk t).view.set := by
  have hi0 : (i 0).val < 100000 := (i 0).isLt
  have hi1 : (i 1).val < 7 := (i 1).isLt
  refine ⟨⟨(i 0).val / 5000, by show (i 0).val / 5000 < 20; omega⟩, flush1_2 _, ?_⟩
  rw [mem_blk]
  obtain ⟨-, -, -, -, e4, e5⟩ := idx_facts ⟨(i 0).val / 5000, by show (i 0).val / 5000 < 20; omega⟩
  intro a
  match a with
  | ⟨0, _⟩ =>
    show win1_2.index _ (0 : Fin 2) * 5000 ≤ (i 0).val ∧ (i 0).val < win1_2.index _ (0 : Fin 2) * 5000 + 5000
    rw [e5]; show (i 0).val / 5000 * 5000 ≤ (i 0).val ∧ (i 0).val < (i 0).val / 5000 * 5000 + 5000; omega
  | ⟨1, _⟩ =>
    show win1_2.index _ (1 : Fin 2) * 7 ≤ (i 1).val ∧ (i 1).val < win1_2.index _ (1 : Fin 2) * 7 + 7
    rw [e4]; omega

/-- The output array after the region: the finishing stage of the two arrays the region reads, as it finds them. -/
theorem final (c : Dev nD) : (dat1 V c).arrAt 2 cfg1.N = finish (V c main_v14) (V c main_v4_1) :=
  (dat1 V c).arrAt_eq_of_cover 2 (finish (V c main_v14) (V c main_v4_1)) (fun t _ => flushed_eq V c t) cover

end Region

end Cert.KernelIdeal.Finish

end
-- ==== Proof.Aggregate.lean ====
/-
  Between the two regions, and the idealized kernel's result as one function of its arguments.

  The first host stretch cuts the edge list `[2, 1600000]` into its two rows: the source row numbers and the destination
  row numbers. After the projection region the second stretch wraps a negative source row number by the table's height
  (an index from the end), gathers the projected rows `[100000, 8]` at the source row numbers, and scatter-adds them,
  onto zeros, at the destination row numbers: the aggregated array. The finishing region reads it beside the branch.
  No operation of the second stretch writes the branch, and no region or operation writes an argument or the two rows of
  the edge list once they are computed, so each buffer's contents at a later boundary walk back to where it was written.
-/
import proofs.«179598_j41188736369203_2_alg».proof.Proof.Project
import proofs.«179598_j41188736369203_2_alg».proof.Proof.Finish
import Idealize.ShloMosaic.Lib.StableHlo.Run

set_option maxRecDepth 16384

noncomputable section

namespace Cert.KernelIdeal.Aggregate

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

/-- Row `r` (0: sources, 1: destinations) of the edge list, as a vector of row numbers. -/
def srcRow (x1 : IVec S2x1600000 32) : IVec S1600000 32 :=
  shapeCast _ (extractStridedSlice S1x1600000 ![0, 0] x1 Facts₀.slices_S2x1600000_S1x1600000_0_0) Facts₀.shapeCasts_S1x1600000_S1600000
def dstRow (x1 : IVec S2x1600000 32) : IVec S1600000 32 :=
  shapeCast _ (extractStridedSlice S1x1600000 ![1, 0] x1 Facts₀.slices_S2x1600000_S1x1600000_1_0) Facts₀.shapeCasts_S1x1600000_S1600000

/-- The source row numbers as a column, a negative one wrapped by the table's height. -/
def srcCol (r0 : IVec S1600000 32) : IVec S1600000x1 32 :=
  broadcastInDim S1600000x1 ![0] Facts₀.bcast_S1600000_S1600000x1_0
    (select (cmpi .slt r0 (broadcastInDim S1600000 ![] Facts₀.bcast_S_S1600000 (constantI S_ 32 0#32)))
      (addi r0 (broadcastInDim S1600000 ![] Facts₀.bcast_S_S1600000 (constantI S_ 32 100000#32))) r0)

/-- The destination row numbers as a column. -/
def dstCol (r1 : IVec S1600000 32) : IVec S1600000x1 32 :=
  broadcastInDim S1600000x1 ![0] Facts₀.bcast_S1600000_S1600000x1_0 r1

/-- The aggregated array: the rows of `y` gathered at the source row numbers, scatter-added onto zeros at the
    destination row numbers. -/
def agg (y : S100000x8.Idx → EReal) (r0 r1 : IVec S1600000 32) : S100000x8.Idx → EReal :=
  Host.scatterAdd (F := Ideal) scatter_S100000x8_S1600000x1_S1600000x8_1_0_0_1
    (broadcastInDim S100000x8 ![] Facts₀.bcast_S_S100000x8 (constant (F := Ideal) S_ .f32 0x00000000#32)) (dstCol r1)
    (Host.gather gather_S100000x8_S1600000x1_S1600000x8_1_0_n_n_0_1_18 y (srcCol r0))

variable (m : (ℓ : Loc nD τ sig) → Buf (Elt Ideal) ℓ) (ρ : Dev nD → PrngReg)

/-! ## Region 0's entry contents are the launch contents at the arguments -/

theorem V1_main_arg0 (c : Dev nD) : V1 m ρ c main_arg0 = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem V1_main_arg2 (c : Dev nD) : V1 m ρ c main_arg2 = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem V1_main_arg3 (c : Dev nD) : V1 m ρ c main_arg3 = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem V1_main_arg4 (c : Dev nD) : V1 m ρ c main_arg4 = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-! ## The two rows of the edge list, at region 0's exit -/

theorem W1_main_v1 (c : Dev nD) : W1 m ρ c (Proc.devRef .tc main_v1) = srcRow (m ((c : Thread nD τ).loc main_arg1)) := by
  show StableHlo.after hostOps0 (W0 m ρ c) (Proc.devRef .tc main_v1) = _
  after_results
  rfl
theorem W1_main_v3 (c : Dev nD) : W1 m ρ c (Proc.devRef .tc main_v3) = dstRow (m ((c : Thread nD τ).loc main_arg1)) := by
  show StableHlo.after hostOps0 (W0 m ρ c) (Proc.devRef .tc main_v3) = _
  after_results
  rfl
theorem W2_main_v1 (c : Dev nD) : W2 m ρ c (Proc.devRef .tc main_v1) = srcRow (m ((c : Thread nD τ).loc main_arg1)) :=
  (W2_of_ne m ρ c main_v1 (by decide)).trans (W1_main_v1 m ρ c)
theorem W2_main_v3 (c : Dev nD) : W2 m ρ c (Proc.devRef .tc main_v3) = dstRow (m ((c : Thread nD τ).loc main_arg1)) :=
  (W2_of_ne m ρ c main_v3 (by decide)).trans (W1_main_v3 m ρ c)

/-! ## Region 0's outputs, at its exit -/

theorem W2_main_v4_0 (c : Dev nD) : W2 m ρ c (Proc.devRef .tc main_v4_0)
    = Project.projAug (m ((c : Thread nD τ).loc main_arg0)) (m ((c : Thread nD τ).loc main_arg2)) := by
  refine (W2_arr m ρ c 4).trans ((Project.final4 (V1 m ρ) c).trans ?_)
  rw [V1_main_arg0, V1_main_arg2]
theorem W2_main_v4_1 (c : Dev nD) : W2 m ρ c (Proc.devRef .tc main_v4_1)
    = Project.branch (m ((c : Thread nD τ).loc main_arg0)) (m ((c : Thread nD τ).loc main_arg4)) (m ((c : Thread nD τ).loc main_arg3)) := by
  refine (W2_arr m ρ c 5).trans ((Project.final5 (V1 m ρ) c).trans ?_)
  rw [V1_main_arg0, V1_main_arg4, V1_main_arg3]

/-! ## Region 1's entry contents -/

theorem V3_main_v14 (c : Dev nD) : V3 m ρ c main_v14
    = agg (W2 m ρ c (Proc.devRef .tc main_v4_0)) (W2 m ρ c (Proc.devRef .tc main_v1)) (W2 m ρ c (Proc.devRef .tc main_v3)) := by
  show StableHlo.after hostOps1 (W2 m ρ c) (Proc.devRef .tc main_v14) = _
  after_results
  rfl
theorem V3_main_v4_1 (c : Dev nD) : V3 m ρ c main_v4_1 = W2 m ρ c (Proc.devRef .tc main_v4_1) :=
  StableHlo.after_of_forall_not_mem (b := Proc.devRef .tc main_v4_1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- THE KERNEL'S VALUE: the last boundary's contents of the result buffer, as one function of the launch contents of
    the five arguments. -/
theorem value (c : Dev nD) : W4 m ρ c (Proc.devRef .tc main_v15)
    = Finish.finish
        (agg (Project.projAug (m ((c : Thread nD τ).loc main_arg0)) (m ((c : Thread nD τ).loc main_arg2)))
          (srcRow (m ((c : Thread nD τ).loc main_arg1))) (dstRow (m ((c : Thread nD τ).loc main_arg1))))
        (Project.branch (m ((c : Thread nD τ).loc main_arg0)) (m ((c : Thread nD τ).loc main_arg4)) (m ((c : Thread nD τ).loc main_arg3))) := by
  refine (W4_arr m ρ c 2).trans ((Finish.final (V3 m ρ) c).trans ?_)
  rw [V3_main_v14, V3_main_v4_1, W2_main_v4_0, W2_main_v4_1, W2_main_v1, W2_main_v3]

end Cert.KernelIdeal.Aggregate

end
-- ==== Proof.LibRows.lean ====
/-
  Rows of a table gathered at, and accumulated into, integer row numbers.

  `x[idx]` of a table `x : [N, C]` (or `[N]`) at row numbers `idx : [E, 1]` reads, for edge `e`, the row whose number is
  `idx[e, 0]` read as a signed integer and clamped into `[0, N − 1]` (`rowOf`). A `segment_sum` of messages `upd : [E, C]`
  (or `[E]`) at row numbers `idx` adds, into row `d`, the messages of exactly those edges `e` whose number `idx[e, 0]`, read
  signed and NOT clamped, is `d` (`edgesInto`): an edge whose number is outside `[0, N)` is dropped. The three sums of
  one program — onto `[N]`, onto `[N, C]` for each width — run over the SAME set of edges, and for an edge of that set the
  clamped row is `d` itself.
-/
import Idealize.ShloMosaic.PureOps.Ideal
import Idealize.ShloMosaic.Lib.ValueIdx

noncomputable section

namespace Cert.Lib.Rows

open Idealize.ShloMosaic Idealize.ShloMosaic.ValueIdx

/-- The row a gather's start index selects: the word read signed, clamped into `[0, N − 1]`. -/
def rowOf (N : Nat) (hN : 0 < N) {w : Nat} (v : BitVec w) : Fin N := ⟨min v.toInt.toNat (N - 1), by omega⟩

/-- The edges a scatter sends to row `d`: those whose row number, read signed, is `d`. -/
def edgesInto {N E w : Nat} (idx : IVec ⟨2, ![E, 1]⟩ w) (d : Fin N) : Finset (Fin E) :=
  Finset.univ.filter fun e => (idx (ix2 e (0 : Fin 1))).toInt = (d.val : Int)

theorem mem_edgesInto {N E w : Nat} (idx : IVec ⟨2, ![E, 1]⟩ w) (d : Fin N) (e : Fin E) :
    e ∈ edgesInto idx d ↔ (idx (ix2 e (0 : Fin 1))).toInt = (d.val : Int) := by
  simp [edgesInto]

/-- For an edge sent to row `d`, the clamped row of the same number is `d`. -/
theorem rowOf_of_toInt {N : Nat} (hN : 0 < N) {w : Nat} (v : BitVec w) (d : Fin N) (h : v.toInt = (d.val : Int)) :
    rowOf N hN v = d := by
  apply Fin.ext
  show min v.toInt.toNat (N - 1) = d.val
  rw [h, Int.toNat_natCast]
  have := d.isLt
  omega

/-! ## Gathers -/

/-- The dimension numbers of `x[idx]` for a table `[N, C]` at row numbers `[E, 1]`. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A gathered row, read at edge `e` and column `k`: the table at the clamped row of `idx[e, 0]`, column `k`. -/
theorem gatherRows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRowsDims N E C wf) x idx (ix2 e k) = x (ix2 (rowOf N hN (idx (ix2 e (0 : Fin 1)))) k) := by
  unfold Host.gather
  congr 1
  funext a
  refine Fin.ext ?_
  match a with
  | ⟨0, _⟩ =>
    show (gatherRowsDims N E C wf).start (ix2 e k) idx 0 + (gatherRowsDims N E C wf).batchCoord (ix2 e k) 0
      + (gatherRowsDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e k) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e k) idx 1 + (gatherRowsDims N E C wf).batchCoord (ix2 e k) 1
      + (gatherRowsDims N E C wf).offCoord (ix2 e k) 1 = k.val
    rw [GatherDims.batchCoord_eq_zero _ _ _ List.not_mem_nil]
    have hs : (gatherRowsDims N E C wf).start (ix2 e k) idx 1 = 0 := by
      unfold GatherDims.start
      rw [dif_neg (show (1 : Fin 2) ∉ ([0] : List (Fin 2)) by decide)]
    rw [hs]
    have ho : (gatherRowsDims N E C wf).offCoord (ix2 e k) 1 = k.val := by
      unfold GatherDims.offCoord
      rw [dif_pos ((GatherDims.mem_sKept _ _).mpr ⟨(show (1 : Fin 2) ∉ ([0] : List (Fin 2)) by decide), List.not_mem_nil⟩)]
      rfl
    rw [ho]
    omega

/-- The dimension numbers of `x[idx]` for a flat table `[N]` at row numbers `[E, 1]`. -/
abbrev gatherEltsDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A gathered element, read at edge `e`: the table at the clamped row of `idx[e, 0]`. -/
theorem gatherElts_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherEltsDims N E wf) x idx (ix1 e) = x (ix1 (rowOf N hN (idx (ix2 e (0 : Fin 1))))) := by
  unfold Host.gather
  congr 1
  funext a
  obtain rfl : a = 0 := Subsingleton.elim _ _
  refine Fin.ext ?_
  show (gatherEltsDims N E wf).start (ix1 e) idx 0 + (gatherEltsDims N E wf).batchCoord (ix1 e) 0
    + (gatherEltsDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherEltsDims N E wf).startIndexMap from List.mem_singleton.mpr rfl)]
  have hsi : (gatherEltsDims N E wf).siIdx (ix1 e) ⟨List.idxOf (0 : Fin 1) (gatherEltsDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating scatters -/

/-- An axis is kept exactly when it is not listed. -/
theorem mem_kept {s : Shape} (axes : List (Fin s.rank)) (a : Fin s.rank) : a ∈ s.kept axes ↔ a ∉ axes := by
  simp [Shape.kept, List.mem_filter, List.mem_finRange]

/-- The dimension numbers of a `segment_sum` of rows `[E, C]` into `[N, C]` at row numbers `[E, 1]`. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterRows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis an update starts at its edge's row number, read signed. -/
theorem scatterRows_start0 : (scatterRowsDims N E C wf).start (ix2 e k) idx 0 = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e k) ⟨List.idxOf (0 : Fin 2) (scatterRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero … -/
theorem scatterRows_start1 : (scatterRowsDims N E C wf).start (ix2 e k) idx 1 = 0 := by
  unfold ScatterDims.start
  rw [dif_neg (show (1 : Fin 2) ∉ ([0] : List (Fin 2)) by decide)]

/-- … the row axis has no window coordinate … -/
theorem scatterRows_window0 : (scatterRowsDims N E C wf).window (ix2 e k) 0 = 0 := by
  unfold ScatterDims.window
  rw [dif_neg (fun h => ((mem_kept _ _).mp h) (List.mem_singleton.mpr rfl))]

/-- … and the column axis has the update's column. -/
theorem scatterRows_window1 : (scatterRowsDims N E C wf).window (ix2 e k) 1 = k.val := by
  unfold ScatterDims.window
  rw [dif_pos ((mem_kept _ _).mpr (show (1 : Fin 2) ∉ ([0] : List (Fin 2)) by decide))]
  rfl

/-- WHERE AN UPDATE LANDS: update `(e, k)` lands on element `(d, k')` exactly when edge `e`'s row number, read signed,
    is `d` and the columns agree. -/
theorem scatterRows_resultIdx_iff (d : Fin N) (k' : Fin C) :
    (scatterRowsDims N E C wf).resultIdx? (ix2 e k) idx = some (ix2 d k')
      ↔ (idx (ix2 e (0 : Fin 1))).toInt = (d.val : Int) ∧ k = k' := by
  unfold ScatterDims.resultIdx?
  constructor
  · intro h
    by_cases hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a
    · rw [dif_pos hb] at h
      have hf := Option.some.inj h
      have h0 : ((scatterRowsDims N E C wf).start (ix2 e k) idx 0 + ((scatterRowsDims N E C wf).window (ix2 e k) 0 : Nat)).toNat = d.val :=
        congrArg Fin.val (congrFun hf 0)
      have h1 : ((scatterRowsDims N E C wf).start (ix2 e k) idx 1 + ((scatterRowsDims N E C wf).window (ix2 e k) 1 : Nat)).toNat = k'.val :=
        congrArg Fin.val (congrFun hf 1)
      have hb0 := (hb 0).1
      rw [scatterRows_start0, scatterRows_window0] at h0 hb0
      rw [scatterRows_start1, scatterRows_window1] at h1
      exact ⟨by omega, Fin.ext (by omega)⟩
    · rw [dif_neg hb] at h
      exact absurd h (by simp)
  · rintro ⟨hv, rfl⟩
    have hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a := by
      intro a
      match a with
      | ⟨0, _⟩ =>
        show 0 ≤ (scatterRowsDims N E C wf).start (ix2 e k) idx 0 + ((scatterRowsDims N E C wf).window (ix2 e k) 0 : Nat)
          ∧ (scatterRowsDims N E C wf).start (ix2 e k) idx 0 + ((scatterRowsDims N E C wf).window (ix2 e k) 0 : Nat) < (N : Int)
        rw [scatterRows_start0, scatterRows_window0, hv]
        have := d.isLt
        omega
      | ⟨1, _⟩ =>
        show 0 ≤ (scatterRowsDims N E C wf).start (ix2 e k) idx 1 + ((scatterRowsDims N E C wf).window (ix2 e k) 1 : Nat)
          ∧ (scatterRowsDims N E C wf).start (ix2 e k) idx 1 + ((scatterRowsDims N E C wf).window (ix2 e k) 1 : Nat) < (C : Int)
        rw [scatterRows_start1, scatterRows_window1]
        have := k.isLt
        omega
    rw [dif_pos hb]
    refine congrArg some (funext fun a => Fin.ext ?_)
    match a with
    | ⟨0, _⟩ =>
      show ((scatterRowsDims N E C wf).start (ix2 e k) idx 0 + ((scatterRowsDims N E C wf).window (ix2 e k) 0 : Nat)).toNat = d.val
      rw [scatterRows_start0, scatterRows_window0, hv]
      omega
    | ⟨1, _⟩ =>
      show ((scatterRowsDims N E C wf).start (ix2 e k) idx 1 + ((scatterRowsDims N E C wf).window (ix2 e k) 1 : Nat)).toNat = k.val
      rw [scatterRows_start1, scatterRows_window1]
      omega

/-- A `segment_sum` into `[N, C]`, read at `(d, k)`: what was there plus the messages, at column `k`, of the edges sent to
    row `d`. -/
theorem scatterAddRows_apply (x : (⟨2, ![N, C]⟩ : Shape).Idx → EReal) (upd : (⟨2, ![E, C]⟩ : Shape).Idx → EReal) (d : Fin N) :
    Ideal.hostScatterAdd (scatterRowsDims N E C wf) x idx upd (ix2 d k) = x (ix2 d k) + ∑ e ∈ edgesInto idx d, upd (ix2 e k) := by
  unfold Ideal.hostScatterAdd
  congr 1
  have key : ∀ j : (⟨2, ![E, C]⟩ : Shape).Idx, (scatterRowsDims N E C wf).resultIdx? j idx = some (ix2 d k) →
      (idx (ix2 (j 0) (0 : Fin 1))).toInt = (d.val : Int) ∧ j = ix2 (j 0) k := by
    intro j hj
    have h := (scatterRows_resultIdx_iff wf idx (j 0) (j 1) d k).mp
      ((congrArg (fun q => (scatterRowsDims N E C wf).resultIdx? q idx) (eq_ix2 j)).symm.trans hj)
    exact ⟨h.1, (eq_ix2 j).trans (congrArg (fun q : Fin C => (ix2 (j 0) q : (⟨2, ![E, C]⟩ : Shape).Idx)) h.2)⟩
  refine Finset.sum_bij' (fun j _ => j 0) (fun e _ => ix2 e k) ?_ ?_ ?_ ?_ ?_
  · intro j hj
    exact (mem_edgesInto idx d (j 0)).mpr (key j (Finset.mem_filter.mp hj).2).1
  · intro e he
    exact Finset.mem_filter.mpr ⟨Finset.mem_univ _,
      (scatterRows_resultIdx_iff wf idx e k d k).mpr ⟨(mem_edgesInto idx d e).mp he, rfl⟩⟩
  · intro j hj
    exact (key j (Finset.mem_filter.mp hj).2).2.symm
  · intro e _
    rfl
  · intro j hj
    exact congrArg upd (key j (Finset.mem_filter.mp hj).2).2

end ScatterRows

/-- The dimension numbers of a `segment_sum` of elements `[E]` into `[N]` at row numbers `[E, 1]`. -/
abbrev scatterEltsDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section ScatterElts
variable {N E w : Nat} (wf : ScatterDims.WF ⟨1, ![N]⟩ ⟨2, ![E, 1]⟩ ⟨1, ![E]⟩ [] [0] [0] 1)
  (idx : IVec ⟨2, ![E, 1]⟩ w) (e : Fin E)

theorem scatterElts_start0 : (scatterEltsDims N E wf).start (ix1 e) idx 0 = (idx (ix2 e (0 : Fin 1))).toInt := by
  unfold ScatterDims.start
  rw [dif_pos (show (0 : Fin 1) ∈ (scatterEltsDims N E wf).scatterDimsToOperandDims from List.mem_singleton.mpr rfl)]
  have hsi : (scatterEltsDims N E wf).siIdx (ix1 e) ⟨List.idxOf (0 : Fin 1) (scatterEltsDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatterElts_window0 : (scatterEltsDims N E wf).window (ix1 e) 0 = 0 := by
  unfold ScatterDims.window
  rw [dif_neg (fun h => ((mem_kept _ _).mp h) (List.mem_singleton.mpr rfl))]

/-- Update `e` lands on element `d` exactly when edge `e`'s row number, read signed, is `d`. -/
theorem scatterElts_resultIdx_iff (d : Fin N) :
    (scatterEltsDims N E wf).resultIdx? (ix1 e) idx = some (ix1 d) ↔ (idx (ix2 e (0 : Fin 1))).toInt = (d.val : Int) := by
  unfold ScatterDims.resultIdx?
  constructor
  · intro h
    by_cases hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a
    · rw [dif_pos hb] at h
      have hf := Option.some.inj h
      have h0 : ((scatterEltsDims N E wf).start (ix1 e) idx 0 + ((scatterEltsDims N E wf).window (ix1 e) 0 : Nat)).toNat = d.val :=
        congrArg Fin.val (congrFun hf 0)
      have hb0 := (hb 0).1
      rw [scatterElts_start0, scatterElts_window0] at h0 hb0
      omega
    · rw [dif_neg hb] at h
      exact absurd h (by simp)
  · intro hv
    have hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a := by
      intro a
      match a with
      | ⟨0, _⟩ =>
        show 0 ≤ (scatterEltsDims N E wf).start (ix1 e) idx 0 + ((scatterEltsDims N E wf).window (ix1 e) 0 : Nat)
          ∧ (scatterEltsDims N E wf).start (ix1 e) idx 0 + ((scatterEltsDims N E wf).window (ix1 e) 0 : Nat) < (N : Int)
        rw [scatterElts_start0, scatterElts_window0, hv]
        have := d.isLt
        omega
    rw [dif_pos hb]
    refine congrArg some (funext fun a => Fin.ext ?_)
    match a with
    | ⟨0, _⟩ =>
      show ((scatterEltsDims N E wf).start (ix1 e) idx 0 + ((scatterEltsDims N E wf).window (ix1 e) 0 : Nat)).toNat = d.val
      rw [scatterElts_start0, scatterElts_window0, hv]
      omega

/-- A `segment_sum` into `[N]`, read at `d`: what was there plus the messages of the edges sent to row `d`. -/
theorem scatterAddElts_apply (x : (⟨1, ![N]⟩ : Shape).Idx → EReal) (upd : (⟨1, ![E]⟩ : Shape).Idx → EReal) (d : Fin N) :
    Ideal.hostScatterAdd (scatterEltsDims N E wf) x idx upd (ix1 d) = x (ix1 d) + ∑ e ∈ edgesInto idx d, upd (ix1 e) := by
  unfold Ideal.hostScatterAdd
  congr 1
  refine Finset.sum_bij' (fun j _ => j 0) (fun e _ => ix1 e) ?_ ?_ ?_ ?_ ?_
  · intro j hj
    exact (mem_edgesInto idx d (j 0)).mpr ((scatterElts_resultIdx_iff wf idx (j 0) d).mp
      ((congrArg (fun q => (scatterEltsDims N E wf).resultIdx? q idx) (eq_ix1 j)).symm.trans (Finset.mem_filter.mp hj).2))
  · intro e he
    exact Finset.mem_filter.mpr ⟨Finset.mem_univ _, (scatterElts_resultIdx_iff wf idx e d).mpr ((mem_edgesInto idx d e).mp he)⟩
  · intro j _
    exact (eq_ix1 j).symm
  · intro e _
    rfl
  · intro j _
    exact congrArg upd (eq_ix1 j)

end ScatterElts

/-! ## Row numbers made nonnegative

`x[idx]` first turns a negative row number `v` into `v + N` (python's indexing from the end) and then gathers. For an edge
whose number, read signed, is a row `d` of the table, nothing changes. -/

/-- A row number that is a row of the table is not negative, so the python-style wrap leaves it alone. -/
theorem wrap_of_toInt (v c : BitVec 32) (d : Nat) (h : v.toInt = (d : Int)) :
    Scalar.select (IntOp.cmpi .slt v 0#32) (IntOp.addi v c) v = v := by
  have h0 : IntOp.cmpi .slt v 0#32 = 0#1 := by
    have hlt : ¬ v.toInt < 0 := by rw [h]; omega
    simp [IntOp.cmpi, BitVec.slt, hlt]
  rw [h0]
  exact if_neg (by decide)

end Cert.Lib.Rows

end
-- ==== Proof.LibMeanProject.lean ====
/-
  Averaging a family of rows and then projecting it, against projecting each row and then averaging.

  Over a finite set `S` of edges, each carrying a row `a e : κ → ℝ`, and a column of weights `w : κ → ℝ`, let
  `c = max (|S|, 1)` be the divisor of a mean that leaves an empty set at zero. The projected mean
  `∑ k, ((∑ e ∈ S, a e k) / c) · w k` is the mean of the projections `(∑ e ∈ S, ∑ k, a e k · w k) / c`: both are the double
  sum of `a e k · w k` times `1 / c`, because a product distributes over a finite sum of REAL numbers and the order of two
  finite sums does not matter. On the extended reals distributivity fails at the infinities, so the law is stated for
  families of real numbers read as extended reals; the count is the sum of ones over `S` onto zero, as a scatter-add
  of ones computes it, and the quotient is the extended reals' `Ideal.div`, which by a nonzero real is the product with
  its reciprocal.
-/
import Idealize.ShloMosaic.PureOps.Ideal

noncomputable section

namespace Cert.Lib.MeanProject

open Idealize.ShloMosaic

/-- The coercion of the reals into the extended reals commutes with a finite sum. -/
theorem coe_sum {ι : Type} (S : Finset ι) (f : ι → ℝ) : ((∑ e ∈ S, f e : ℝ) : EReal) = ∑ e ∈ S, (f e : EReal) := by
  classical
  induction S using Finset.induction_on with
  | empty => simp
  | insert a S ha ih => rw [Finset.sum_insert ha, Finset.sum_insert ha, EReal.coe_add, ih]

/-- A sum of ones over a finite set, onto zero, is the number of its elements. -/
theorem count_eq {ι : Type} (S : Finset ι) : (0 : EReal) + ∑ _e ∈ S, (1 : EReal) = ((S.card : ℝ) : EReal) := by
  have h : ∑ _e ∈ S, (1 : EReal) = ∑ _e ∈ S, (((1 : ℝ)) : EReal) := Finset.sum_congr rfl fun _ _ => EReal.coe_one.symm
  rw [zero_add, h, ← coe_sum, Finset.sum_const, nsmul_eq_mul, mul_one]

/-- The divisor of the mean: the count, or one for an empty set; a real number that is at least one. -/
theorem divisor_eq {ι : Type} (S : Finset ι) :
    max ((0 : EReal) + ∑ _e ∈ S, (1 : EReal)) 1 = ((max (S.card : ℝ) 1 : ℝ) : EReal) := by
  rw [count_eq, ← EReal.coe_one]
  exact (EReal.coe_strictMono.monotone.map_max).symm

theorem divisor_ne_zero {ι : Type} (S : Finset ι) : max (S.card : ℝ) 1 ≠ 0 :=
  ne_of_gt (lt_of_lt_of_le one_pos (le_max_right _ _))

/-- The law on the reals: a common factor `q` and the weights move through the two finite sums. -/
theorem real_law {ι κ : Type} [Fintype κ] (S : Finset ι) (a : ι → κ → ℝ) (w : κ → ℝ) (q : ℝ) :
    (∑ e ∈ S, ∑ k, a e k * w k) * q = ∑ k, ((∑ e ∈ S, a e k) * q) * w k := by
  rw [Finset.sum_comm, Finset.sum_mul]
  refine Finset.sum_congr rfl fun k _ => ?_
  rw [Finset.sum_mul, Finset.sum_mul, Finset.sum_mul]
  refine Finset.sum_congr rfl fun e _ => ?_
  ring

/-- THE LAW. The mean (by the count of `S`, or by one when `S` is empty) of the projections of the rows is the projection
    of the mean row, for real rows and real weights read as extended reals. -/
theorem mean_project {ι κ : Type} [Fintype κ] (S : Finset ι) (a : ι → κ → ℝ) (w : κ → ℝ) :
    Ideal.div ((0 : EReal) + ∑ e ∈ S, ∑ k, ((a e k : ℝ) : EReal) * ((w k : ℝ) : EReal)) (max ((0 : EReal) + ∑ _e ∈ S, (1 : EReal)) 1)
      = ∑ k, Ideal.div ((0 : EReal) + ∑ e ∈ S, ((a e k : ℝ) : EReal)) (max ((0 : EReal) + ∑ _e ∈ S, (1 : EReal)) 1) * ((w k : ℝ) : EReal) := by
  rw [divisor_eq, Ideal.div_coe (divisor_ne_zero S)]
  have hl : (0 : EReal) + ∑ e ∈ S, ∑ k, ((a e k : ℝ) : EReal) * ((w k : ℝ) : EReal) = ((∑ e ∈ S, ∑ k, a e k * w k : ℝ) : EReal) := by
    rw [zero_add, coe_sum]
    refine Finset.sum_congr rfl fun e _ => ?_
    rw [coe_sum]
    exact Finset.sum_congr rfl fun k _ => (EReal.coe_mul _ _).symm
  have hr : ∀ k, Ideal.div ((0 : EReal) + ∑ e ∈ S, ((a e k : ℝ) : EReal)) ((max (S.card : ℝ) 1 : ℝ) : EReal) * ((w k : ℝ) : EReal)
      = (((∑ e ∈ S, a e k) * (1 / max (S.card : ℝ) 1) * w k : ℝ) : EReal) := by
    intro k
    rw [Ideal.div_coe (divisor_ne_zero S), zero_add, ← coe_sum, ← EReal.coe_mul, ← EReal.coe_mul]
  rw [hl, ← EReal.coe_mul, Finset.sum_congr rfl fun k _ => hr k, ← coe_sum]
  exact congrArg _ (real_law S a w _)

end Cert.Lib.MeanProject

end
-- ==== Proof.Spec.lean ====
/-
  The two arrangements of one mean-aggregation layer, and their equality.

  A node `d` receives the rows of the nodes `row e` over the edges `e ∈ S d` that end at it. With `c d` the number of
  those edges, or one when there are none, the layer's output at `(d, o)` is
  `max ((∑ k, mean (d, k) · Wl (k, o) + b o) + ∑ k, x (d, k) · Wr (k, o), 0)` where `mean (d, k) = (∑ e ∈ S d, x (row e, k)) / c d`.
  The other arrangement projects every row first and aggregates the seven projected numbers:
  `max ((∑ e ∈ S d, ∑ k, x (row e, k) · Wl (k, o)) / c d + (∑ k, x (d, k) · Wr (k, o) + b o), 0)`.
  The two agree when the rows and `Wl` are real: the mean of the projections is the projection of the mean
  (`Cert.Lib.MeanProject.mean_project`), and the three summands are added in a different order, which an addition on
  the extended reals allows without any condition.
-/
import proofs.«179598_j41188736369203_2_alg».proof.Proof.LibMeanProject
import proofs.«179598_j41188736369203_2_alg».proof.Proof.LibDense
import Idealize.ShloMosaic.Lib.ValueIdx

noncomputable section

namespace Cert.Spec

open Idealize.ShloMosaic Idealize.ShloMosaic.ValueIdx Cert.LibDense

variable {N E : ℕ}

/-- Project, then aggregate and average. -/
def projectThenMean (x : (⟨2, ![N, 64]⟩ : Shape).Idx → EReal) (wl wr : (⟨2, ![64, 7]⟩ : Shape).Idx → EReal)
    (b : (⟨1, ![7]⟩ : Shape).Idx → EReal) (S : Fin N → Finset (Fin E)) (row : Fin E → Fin N) :
    (⟨2, ![N, 7]⟩ : Shape).Idx → EReal :=
  fun i => max (Ideal.div ((0 : EReal) + ∑ e ∈ S (i 0), prod x wl (ix2 (row e) (i 1))) (max ((0 : EReal) + ∑ _e ∈ S (i 0), (1 : EReal)) 1)
    + (prod x wr i + b (ix1 (i 1)))) 0

/-- Aggregate and average, then project. -/
def meanThenProject (x : (⟨2, ![N, 64]⟩ : Shape).Idx → EReal) (wl wr : (⟨2, ![64, 7]⟩ : Shape).Idx → EReal)
    (b : (⟨1, ![7]⟩ : Shape).Idx → EReal) (S : Fin N → Finset (Fin E)) (row : Fin E → Fin N) :
    (⟨2, ![N, 7]⟩ : Shape).Idx → EReal :=
  fun i => max (((∑ k : Fin 64, Ideal.div ((0 : EReal) + ∑ e ∈ S (i 0), x (ix2 (row e) k)) (max ((0 : EReal) + ∑ _e ∈ S (i 0), (1 : EReal)) 1)
      * wl (ix2 k (i 1))) + b (ix1 (i 1))) + prod x wr i) 0

/-- The first arrangement at node `d` and output column `q`. -/
theorem projectThenMean_apply (x : (⟨2, ![N, 64]⟩ : Shape).Idx → EReal) (wl wr : (⟨2, ![64, 7]⟩ : Shape).Idx → EReal)
    (b : (⟨1, ![7]⟩ : Shape).Idx → EReal) (S : Fin N → Finset (Fin E)) (row : Fin E → Fin N) (d : Fin N) (q : Fin 7) :
    projectThenMean x wl wr b S row (ix2 d q)
      = max (Ideal.div ((0 : EReal) + ∑ e ∈ S d, prod x wl (ix2 (row e) q)) (max ((0 : EReal) + ∑ _e ∈ S d, (1 : EReal)) 1)
          + (prod x wr (ix2 d q) + b (ix1 q))) 0 := rfl

/-- The second arrangement at node `d` and output column `q`. -/
theorem meanThenProject_apply (x : (⟨2, ![N, 64]⟩ : Shape).Idx → EReal) (wl wr : (⟨2, ![64, 7]⟩ : Shape).Idx → EReal)
    (b : (⟨1, ![7]⟩ : Shape).Idx → EReal) (S : Fin N → Finset (Fin E)) (row : Fin E → Fin N) (d : Fin N) (q : Fin 7) :
    meanThenProject x wl wr b S row (ix2 d q)
      = max (((∑ k : Fin 64, Ideal.div ((0 : EReal) + ∑ e ∈ S d, x (ix2 (row e) k)) (max ((0 : EReal) + ∑ _e ∈ S d, (1 : EReal)) 1)
          * wl (ix2 k q)) + b (ix1 q)) + prod x wr (ix2 d q)) 0 := rfl

/-- The two arrangements agree when every entry of the rows and of `Wl` is a real number. -/
theorem projectThenMean_eq (x : (⟨2, ![N, 64]⟩ : Shape).Idx → EReal) (wl wr : (⟨2, ![64, 7]⟩ : Shape).Idx → EReal)
    (b : (⟨1, ![7]⟩ : Shape).Idx → EReal) (S : Fin N → Finset (Fin E)) (row : Fin E → Fin N)
    (hx : ∀ i, ∃ r : ℝ, x i = (r : EReal)) (hw : ∀ i, ∃ r : ℝ, wl i = (r : EReal)) :
    projectThenMean x wl wr b S row = meanThenProject x wl wr b S row := by
  choose xr hxr using hx
  choose wr' hwr using hw
  funext i
  unfold projectThenMean meanThenProject
  have key : Ideal.div ((0 : EReal) + ∑ e ∈ S (i 0), prod x wl (ix2 (row e) (i 1))) (max ((0 : EReal) + ∑ _e ∈ S (i 0), (1 : EReal)) 1)
      = ∑ k : Fin 64, Ideal.div ((0 : EReal) + ∑ e ∈ S (i 0), x (ix2 (row e) k)) (max ((0 : EReal) + ∑ _e ∈ S (i 0), (1 : EReal)) 1)
          * wl (ix2 k (i 1)) := by
    have h := Cert.Lib.MeanProject.mean_project (S (i 0)) (fun e (k : Fin 64) => xr (ix2 (row e) k)) (fun k => wr' (ix2 k (i 1)))
    unfold prod
    simp only [hxr, hwr]
    exact h
  rw [key, add_comm (prod x wr i) (b (ix1 (i 1))), add_assoc]

end Cert.Spec

end
-- ==== Proof.KernelRead.lean ====
/-
  The idealized kernel's value, index by index, is the project-then-mean arrangement.

  The aggregated array at row `d` and column `k` is zero plus the sum, over the edges whose destination row number is `d`,
  of the gathered table at the edge's (wrapped, clamped) source row and column `k`. The gathered table is the augmented
  projection: in columns 0 … 6 the row projected by `Wl`, in column 7 the number one, so that column 7 of the aggregate
  counts the edges. The finishing stage divides the seven sums by the count (or by one), adds the branch and rectifies.
-/
import proofs.«179598_j41188736369203_2_alg».proof.Proof.Aggregate
import proofs.«179598_j41188736369203_2_alg».proof.Proof.LibRows
import proofs.«179598_j41188736369203_2_alg».proof.Proof.Spec
import Idealize.ShloMosaic.PureOps.Ideal.Laws
import Idealize.ShloMosaic.Lib.IdealHost

set_option maxRecDepth 16384

noncomputable section

namespace Cert.KernelIdeal.KernelRead

open Cert.KernelIdeal Cert.KernelIdeal.Aggregate
open Idealize.ShloMosaic Idealize.ShloMosaic.ValueIdx Cert.Lib.Rows

theorem rows_pos : 0 < 100000 := by norm_num

/-- The edges into node `d` and the source row of edge `e`, from the two rows of the edge list. -/
abbrev edges (r1 : IVec S1600000 32) (d : Fin 100000) : Finset (Fin 1600000) := edgesInto (dstCol r1) d
abbrev srcOf (r0 : IVec S1600000 32) (e : Fin 1600000) : Fin 100000 :=
  rowOf 100000 rows_pos (srcCol r0 (ix2 e (0 : Fin 1)))

/-- The program's scatter and gather are a scatter-add of rows into rows and a gather of rows, by their dimension numbers. -/
theorem scatter_eq : scatter_S100000x8_S1600000x1_S1600000x8_1_0_0_1
    = scatterRowsDims 100000 1600000 8 Facts₀.scatter_S100000x8_S1600000x1_S1600000x8_1_0_0_1_wf := rfl
theorem gather_eq : gather_S100000x8_S1600000x1_S1600000x8_1_0_n_n_0_1_18
    = gatherRowsDims 100000 1600000 8 Facts₀.gather_S100000x8_S1600000x1_S1600000x8_1_0_n_n_0_1_18_wf := rfl

/-- On the extended reals the host's accumulating scatter is the sum it denotes. -/
theorem scatterAdd_ideal {s si su : Shape} (dn : ScatterDims s si su) {w : Nat} (x : FVec Ideal s .f32) (idx : IVec si w)
    (upd : FVec Ideal su .f32) : Host.scatterAdd (F := Ideal) dn x idx upd = Ideal.hostScatterAdd dn x idx upd := rfl

theorem agg_apply (y : S100000x8.Idx → EReal) (r0 r1 : IVec S1600000 32) (d : Fin 100000) (k : Fin 8) :
    agg y r0 r1 (ix2 d k) = Ideal.ofBits .f32 0x00000000#32 + ∑ e ∈ edges r1 d, y (ix2 (srcOf r0 e) k) := by
  unfold agg
  rw [scatter_eq, gather_eq, scatterAdd_ideal, scatterAddRows_apply]
  refine congrArg₂ (· + ·) ?_ (Finset.sum_congr rfl fun e _ => ?_)
  · exact broadcastInDim_apply _ Facts₀.bcast_S_S100000x8 _ _ ix0 (fun a => a.elim0)
  · exact gatherRows_apply rows_pos Facts₀.gather_S100000x8_S1600000x1_S1600000x8_1_0_n_n_0_1_18_wf y (srcCol r0) e k

/-- The finishing stage, the branch and the augmented projection at explicit coordinates. -/
theorem finish_apply (a : S100000x8.Idx → EReal) (r : S100000x7.Idx → EReal) (d : Fin 100000) (q : Fin 7) :
    Finish.finish a r (ix2 d q)
      = max (Ideal.div (a (ix2 d (Finish.col8 q))) (max (a (ix2 d (7 : Fin 8))) (Ideal.ofBits .f32 0x3F800000#32)) + r (ix2 d q))
          (Ideal.ofBits .f32 0x00000000#32) := rfl
theorem branch_apply (x0 : S100000x64.Idx → EReal) (x4 : S64x7.Idx → EReal) (x3 : S7.Idx → EReal) (d : Fin 100000) (q : Fin 7) :
    Project.branch x0 x4 x3 (ix2 d q) = Cert.LibDense.prod x0 x4 (ix2 d q) + x3 (ix1 q) := rfl
theorem projAug_proj (x0 : S100000x64.Idx → EReal) (x2 : S64x7.Idx → EReal) (n : Fin 100000) (q : Fin 7) :
    Project.projAug x0 x2 (ix2 n (Finish.col8 q)) = Cert.LibDense.prod x0 x2 (ix2 n q) := by
  unfold Project.projAug
  rw [dif_pos (show ((ix2 n (Finish.col8 q) : S100000x8.Idx) 1).val < 7 from q.isLt)]
theorem projAug_one (x0 : S100000x64.Idx → EReal) (x2 : S64x7.Idx → EReal) (n : Fin 100000) :
    Project.projAug x0 x2 (ix2 n (7 : Fin 8)) = Ideal.ofBits .f32 0x3F800000#32 := by
  unfold Project.projAug
  rw [dif_neg (show ¬ ((ix2 n (7 : Fin 8) : S100000x8.Idx) 1).val < 7 from Nat.lt_irrefl 7)]

/-- The kernel's value function is the project-then-mean arrangement over the edge list's edge sets and source rows. -/
theorem value_eq_spec (x0 : S100000x64.Idx → EReal) (x2 x4 : S64x7.Idx → EReal) (x3 : S7.Idx → EReal) (r0 r1 : IVec S1600000 32) :
    Finish.finish (agg (Project.projAug x0 x2) r0 r1) (Project.branch x0 x4 x3)
      = Cert.Spec.projectThenMean x0 x2 x4 x3 (edges r1) (srcOf r0) := by
  funext i
  obtain ⟨d, q, rfl⟩ : ∃ (d : Fin 100000) (q : Fin 7), i = ix2 d q := ⟨i 0, i 1, eq_ix2 i⟩
  have hnum : agg (Project.projAug x0 x2) r0 r1 (ix2 d (Finish.col8 q))
      = (0 : EReal) + ∑ e ∈ edges r1 d, Cert.LibDense.prod x0 x2 (ix2 (srcOf r0 e) q) := by
    rw [agg_apply, Ideal.ofBits_zero_f32]
    exact congrArg (fun s => (0 : EReal) + s) (Finset.sum_congr rfl fun e _ => projAug_proj x0 x2 (srcOf r0 e) q)
  have hcnt : agg (Project.projAug x0 x2) r0 r1 (ix2 d (7 : Fin 8))
      = (0 : EReal) + ∑ _e ∈ edges r1 d, (1 : EReal) := by
    rw [agg_apply, Ideal.ofBits_zero_f32]
    exact congrArg (fun s => (0 : EReal) + s) (Finset.sum_congr rfl fun e _ => (projAug_one x0 x2 (srcOf r0 e)).trans Ideal.ofBits_one_f32)
  rw [finish_apply, hnum, hcnt, branch_apply, Cert.Spec.projectThenMean_apply, Ideal.ofBits_zero_f32, Ideal.ofBits_one_f32]

end Cert.KernelIdeal.KernelRead

end
-- ==== Proof.RefRead.lean ====
/-
  The idealized reference's value, index by index, is the mean-then-project arrangement.

  The reference gathers the rows of `x` at the (wrapped, clamped) source row numbers, scatter-adds them onto zeros at the
  destination row numbers, scatter-adds ones onto zeros at the same destination row numbers for the count, divides each
  aggregated row by the count (or by one), multiplies by `Wl`, adds the bias, adds `x · Wr`, and rectifies. The stages
  that are layout or pointwise operations or matrix products are read by the generated lemmas; the gather and the two
  scatter-adds are read as the table at the clamped row and as sums over the edges sent to a row.
-/
import proofs.«179598_j41188736369203_2_alg».proof.Proof.Gen.ReferenceIdeal.Read
import proofs.«179598_j41188736369203_2_alg».proof.Proof.LibRows
import proofs.«179598_j41188736369203_2_alg».proof.Proof.Spec
import Idealize.ShloMosaic.PureOps.Ideal.Laws
import Idealize.ShloMosaic.Lib.IdealHost

set_option maxRecDepth 16384

noncomputable section

namespace Cert.ReferenceIdeal.RefRead

open Cert.ReferenceIdeal Cert.ReferenceIdeal.Read
open Idealize.ShloMosaic Idealize.ShloMosaic.ValueIdx Cert.Lib.Rows

theorem rows_pos : 0 < 100000 := by norm_num

/-- The edges into node `d` and the source row of edge `e`, from the reference's two index columns. -/
abbrev edges (x1 : IVec S2x1600000 32) (d : Fin 100000) : Finset (Fin 1600000) := edgesInto (val_main_v12 (F := Ideal) x1) d
abbrev srcOf (x1 : IVec S2x1600000 32) (e : Fin 1600000) : Fin 100000 :=
  rowOf 100000 rows_pos (val_main_v9 (F := Ideal) x1 (ix2 e (0 : Fin 1)))

/-- The program's scatters and gather are scatter-adds of rows / elements into rows and a gather of rows. -/
theorem scatter64_eq : scatter_S100000x64_S1600000x1_S1600000x64_1_0_0_1
    = scatterRowsDims 100000 1600000 64 Facts₀.scatter_S100000x64_S1600000x1_S1600000x64_1_0_0_1_wf := rfl
theorem gather64_eq : gather_S100000x64_S1600000x1_S1600000x64_1_0_n_n_0_1_164
    = gatherRowsDims 100000 1600000 64 Facts₀.gather_S100000x64_S1600000x1_S1600000x64_1_0_n_n_0_1_164_wf := rfl
theorem scatter1_eq : scatter_S100000_S1600000x1_S1600000_n_0_0_1
    = scatterEltsDims 100000 1600000 Facts₀.scatter_S100000_S1600000x1_S1600000_n_0_0_1_wf := rfl

/-- On the extended reals the host's accumulating scatter is the sum it denotes. -/
theorem scatterAdd_ideal {s si su : Shape} (dn : ScatterDims s si su) {w : Nat} (x : FVec Ideal s .f32) (idx : IVec si w)
    (upd : FVec Ideal su .f32) : Host.scatterAdd (F := Ideal) dn x idx upd = Ideal.hostScatterAdd dn x idx upd := rfl

/-- The two destination columns of the program are one column. -/
theorem v16_eq (x1 : IVec S2x1600000 32) : val_main_v16 (F := Ideal) x1 = val_main_v12 (F := Ideal) x1 := rfl

/-- The aggregated rows at a row and a column: zero plus the gathered rows of the edges sent there. -/
theorem v13_apply (x0 : S100000x64.Idx → EReal) (x1 : IVec S2x1600000 32) (d : Fin 100000) (k : Fin 64) :
    val_main_v13 (F := Ideal) x0 x1 (ix2 d k)
      = Ideal.ofBits .f32 0x00000000#32 + ∑ e ∈ edges x1 d, x0 (ix2 (srcOf x1 e) k) := by
  unfold val_main_v13 val_main_v10
  rw [scatter64_eq, gather64_eq, scatterAdd_ideal, scatterAddRows_apply]
  refine congrArg₂ (· + ·) ?_ (Finset.sum_congr rfl fun e _ => ?_)
  · exact (val_main_v11_apply _).trans (val_main_cst_apply _)
  · exact gatherRows_apply rows_pos Facts₀.gather_S100000x64_S1600000x1_S1600000x64_1_0_n_n_0_1_164_wf x0 (val_main_v9 (F := Ideal) x1) e k

/-- The count at a row: zero plus a one for each edge sent there. -/
theorem v17_apply (x1 : IVec S2x1600000 32) (d : Fin 100000) :
    val_main_v17 (F := Ideal) x1 (ix1 d)
      = Ideal.ofBits .f32 0x00000000#32 + ∑ _e ∈ edges x1 d, Ideal.ofBits .f32 0x3F800000#32 := by
  unfold val_main_v17
  rw [scatter1_eq, v16_eq, scatterAdd_ideal, scatterAddElts_apply]
  refine congrArg₂ (· + ·) ?_ (Finset.sum_congr rfl fun e _ => ?_)
  · exact (val_main_v15_apply _).trans (val_main_cst_2_apply _)
  · exact (val_main_v14_apply _).trans (val_main_cst_1_apply _)

/-- The mean row at node `d`, column `k`. -/
theorem v22_apply (x0 : S100000x64.Idx → EReal) (x1 : IVec S2x1600000 32) (d : Fin 100000) (k : Fin 64) :
    val_main_v22 (F := Ideal) x0 x1 (ix2 d k)
      = Ideal.div ((0 : EReal) + ∑ e ∈ edges x1 d, x0 (ix2 (srcOf x1 e) k)) (max ((0 : EReal) + ∑ _e ∈ edges x1 d, (1 : EReal)) 1) := by
  have h21 : idx_main_v20 (idx_main_v21 (ix2 d k)) = ix1 d := funext fun a => Fin.ext (by match a with | ⟨0, _⟩ => rfl)
  rw [val_main_v22_apply, val_main_v21_apply, val_main_v20_apply, val_main_v19_apply, h21, v13_apply, v17_apply,
    val_main_v18_apply, val_main_cst_3_apply, Ideal.hostDivf_def, Ideal.maximumf_def, Ideal.ofBits_def,
    Ideal.ofBits_zero_f32, Ideal.ofBits_one_f32]

/-- The reference's value function is the mean-then-project arrangement over its edge sets and source rows. -/
theorem value_eq_spec (x0 : S100000x64.Idx → EReal) (x1 : IVec S2x1600000 32) (x2 : S64x7.Idx → EReal) (x3 : S7.Idx → EReal)
    (x4 : S64x7.Idx → EReal) :
    val_main_v29 (F := Ideal) x0 x1 x2 x3 x4 = Cert.Spec.meanThenProject x0 x2 x4 x3 (edges x1) (srcOf x1) := by
  funext i
  obtain ⟨d, q, rfl⟩ : ∃ (d : Fin 100000) (q : Fin 7), i = ix2 d q := ⟨i 0, i 1, eq_ix2 i⟩
  have hl : ∀ k : Fin 64, lidx_main_v23 (ix2 d q) k = ix2 d k := fun k => funext fun a => Fin.ext (by match a with | ⟨0, _⟩ => rfl | ⟨1, _⟩ => rfl)
  have hr : ∀ k : Fin 64, ridx_main_v23 (ix2 d q) k = ix2 k q := fun k => funext fun a => Fin.ext (by match a with | ⟨0, _⟩ => rfl | ⟨1, _⟩ => rfl)
  have hl' : ∀ k : Fin 64, lidx_main_v27 (ix2 d q) k = ix2 d k := fun k => funext fun a => Fin.ext (by match a with | ⟨0, _⟩ => rfl | ⟨1, _⟩ => rfl)
  have hr' : ∀ k : Fin 64, ridx_main_v27 (ix2 d q) k = ix2 k q := fun k => funext fun a => Fin.ext (by match a with | ⟨0, _⟩ => rfl | ⟨1, _⟩ => rfl)
  have h25 : idx_main_v24 (idx_main_v25 (ix2 d q)) = ix1 q := funext fun a => Fin.ext (by match a with | ⟨0, _⟩ => rfl)
  have h23 : (∑ k : Fin 64, val_main_v22 (F := Ideal) x0 x1 (lidx_main_v23 (ix2 d q) k) * x2 (ridx_main_v23 (ix2 d q) k))
      = ∑ k : Fin 64, Ideal.div ((0 : EReal) + ∑ e ∈ edges x1 d, x0 (ix2 (srcOf x1 e) k)) (max ((0 : EReal) + ∑ _e ∈ edges x1 d, (1 : EReal)) 1)
          * x2 (ix2 k q) :=
    Finset.sum_congr rfl fun k _ => by rw [hl k, hr k, v22_apply]
  have h27 : (∑ k : Fin 64, x0 (lidx_main_v27 (ix2 d q) k) * x4 (ridx_main_v27 (ix2 d q) k))
      = ∑ k : Fin 64, x0 (ix2 d k) * x4 (ix2 k q) :=
    Finset.sum_congr rfl fun k _ => by rw [hl' k, hr' k]
  have hprod : Cert.LibDense.prod x0 x4 (ix2 d q) = ∑ k : Fin 64, x0 (ix2 d k) * x4 (ix2 k q) := rfl
  rw [val_main_v29_apply, val_main_v28_apply, val_main_v26_apply, val_main_v23_apply, val_main_v27_apply,
    val_main_v25_apply, val_main_v24_apply, val_main_call0_v0_apply, val_main_call0_cst_apply, h25, h23, h27,
    Cert.Spec.meanThenProject_apply, hprod, Ideal.maximumf_def, Ideal.addf_def, Ideal.addf_def, Ideal.ofBits_def,
    Ideal.ofBits_zero_f32]

end Cert.ReferenceIdeal.RefRead

end
-- ==== Proof.Bridge.lean ====
/-
  The two programs compute one function of the arguments.

  Both cut the edge list into the same two rows, wrap and clamp the source row numbers the same way and send an edge to
  the row its destination number names, so their edge sets and source rows are the same. Over these the kernel is the
  project-then-mean arrangement and the reference the mean-then-project one, and the two agree when the rows `x` and the
  weights `Wl` are real.
-/
import proofs.«179598_j41188736369203_2_alg».proof.Proof.KernelRead
import proofs.«179598_j41188736369203_2_alg».proof.Proof.RefRead

set_option maxRecDepth 16384

noncomputable section

namespace Cert.Bridge

open Idealize.ShloMosaic Idealize.ShloMosaic.ValueIdx
open Cert.KernelIdeal.Aggregate

/-- The reference's destination column is the kernel's. -/
theorem dstCol_eq (x1 : IVec Cert.KernelIdeal.S2x1600000 32) :
    Cert.ReferenceIdeal.Read.val_main_v12 (F := Ideal) x1 = dstCol (dstRow x1) := rfl

/-- The reference's wrapped source column is the kernel's. -/
theorem srcCol_eq (x1 : IVec Cert.KernelIdeal.S2x1600000 32) :
    Cert.ReferenceIdeal.Read.val_main_v9 (F := Ideal) x1 = srcCol (srcRow x1) := rfl

/-- So the edge sets and the source rows are the same. -/
theorem edges_eq (x1 : IVec Cert.KernelIdeal.S2x1600000 32) :
    Cert.ReferenceIdeal.RefRead.edges x1 = Cert.KernelIdeal.KernelRead.edges (dstRow x1) := by
  funext d
  show Cert.Lib.Rows.edgesInto (Cert.ReferenceIdeal.Read.val_main_v12 (F := Ideal) x1) d = Cert.Lib.Rows.edgesInto (dstCol (dstRow x1)) d
  rw [dstCol_eq]
theorem srcOf_eq (x1 : IVec Cert.KernelIdeal.S2x1600000 32) :
    Cert.ReferenceIdeal.RefRead.srcOf x1 = Cert.KernelIdeal.KernelRead.srcOf (srcRow x1) := by
  funext e
  show Cert.Lib.Rows.rowOf 100000 _ (Cert.ReferenceIdeal.Read.val_main_v9 (F := Ideal) x1 (ix2 e (0 : Fin 1)))
    = Cert.Lib.Rows.rowOf 100000 _ (srcCol (srcRow x1) (ix2 e (0 : Fin 1)))
  rw [srcCol_eq]

/-- THE BRIDGE: the reference's value is the kernel's value, for real rows and real `Wl`. -/
theorem value_eq (x0 : Cert.KernelIdeal.S100000x64.Idx → EReal) (x1 : IVec Cert.KernelIdeal.S2x1600000 32)
    (x2 : Cert.KernelIdeal.S64x7.Idx → EReal) (x3 : Cert.KernelIdeal.S7.Idx → EReal) (x4 : Cert.KernelIdeal.S64x7.Idx → EReal)
    (hx : ∀ i, ∃ r : ℝ, x0 i = (r : EReal)) (hw : ∀ i, ∃ r : ℝ, x2 i = (r : EReal)) :
    Cert.ReferenceIdeal.Read.val_main_v29 (F := Ideal) x0 x1 x2 x3 x4
      = Cert.KernelIdeal.Finish.finish (agg (Cert.KernelIdeal.Project.projAug x0 x2) (srcRow x1) (dstRow x1))
          (Cert.KernelIdeal.Project.branch x0 x4 x3) := by
  rw [Cert.ReferenceIdeal.RefRead.value_eq_spec, Cert.KernelIdeal.KernelRead.value_eq_spec, edges_eq, srcOf_eq]
  exact (Cert.Spec.projectThenMean_eq x0 x2 x4 x3 _ _ hx hw).symm

end Cert.Bridge

end
-- ==== Proof.Finite.lean ====
/-
  Under the precondition every entry of the rows `x` and of the weights `Wl` is a real number.

  The precondition is the conjunction, over the four float arguments, of "every entry's absolute value is below +∞".
  An extended real whose absolute value `max x (−x)` is strictly below `⊤` is neither `⊤` nor `⊥`, so it is a real number.
  A conjunction of one-bit words that is one has every conjunct one, and a reduction by `and` over all axes that is one
  has every entry one.
-/
import proofs.«179598_j41188736369203_2_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Finite

open Idealize.ShloMosaic Idealize.ShloMosaic.ValueIdx Cert.Pre_finite_inputs

/-- An extended real whose absolute value is strictly below the word of +∞ is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => exfalso; simp [Ideal.cmp] at h
  | coe r => exact ⟨r, rfl⟩
  | top => exfalso; simp [Ideal.cmp] at h

instance : Subsingleton S_.Idx := ⟨fun a b => funext fun d => d.elim0⟩

variable [hP : Cert.Pre_finite_inputs.Facts]

/-- The precondition gives real rows and real weights `Wl`. -/
theorem reals_of_pre (a0 : FVec Ideal S100000x64 .f32) (a1 : IVec S2x1600000 32) (a2 : FVec Ideal S64x7 .f32)
    (a3 : FVec Ideal S7 .f32) (a4 : FVec Ideal S64x7 .f32)
    (h : Cert.Pre_finite_inputs.fn (F := Ideal) a0 a1 a2 a3 a4 = fun _ => 1#1) :
    (∀ i, ∃ r : ℝ, a0 i = (r : EReal)) ∧ (∀ i, ∃ r : ℝ, a2 i = (r : EReal)) := by
  have h0 := congrFun h ix0
  dsimp only [Cert.Pre_finite_inputs.fn, Cert.Pre_finite_inputs.fn_part1] at h0
  obtain ⟨h13, -⟩ := IntOp.andi_eq_one.mp h0
  obtain ⟨h8, -⟩ := IntOp.andi_eq_one.mp h13
  obtain ⟨h3, h7⟩ := IntOp.andi_eq_one.mp h8
  refine ⟨fun i => real_of_abs_lt_inf (a0 i) ?_, fun i => real_of_abs_lt_inf (a2 i) ?_⟩
  · exact Host.reduce_andi_all _ _ _ _ ix0 h3 i
  · exact Host.reduce_andi_all _ _ _ _ ix0 h7 i

end Cert.Finite

end
-- ==== Proof.lean ====
/-
  A mean-aggregation graph-convolution layer with a rectifier: `max (mean_{j → i} x_j · Wl + b + x_i · Wr, 0)` over a graph
  of 100000 nodes and 1600000 edges, the mean taken over the edges that end at a node and an isolated node's mean zero.

  The kernel projects every row first, `x · Wl`, appends a column of ones, gathers the eight numbers along the edges'
  source rows, scatter-adds them at the destination rows, and in a second region divides the seven sums by the eighth
  (the count, at least one), adds `x · Wr + b` and rectifies. The reference gathers and scatter-adds the 64-wide rows,
  counts with a separate scatter-add of ones, divides, and then multiplies by `Wl`. On the extended reals the two are
  one function of the arguments when the rows and `Wl` are real, which the precondition says: the mean of the
  projections is the projection of the mean, because a real factor distributes over a finite sum of reals and the order
  of two finite sums does not matter; the three summands are then added in another order. The format changes and the
  tiling into blocks of 5000 rows do not matter on the extended reals.

  The three frames are the generated ones (the reference's is its run with the result dropped); the ideal pass rewrote
  nothing, so the kernel's idealization is its own text; the value claim joins the kernel's run, read at the last
  boundary of its four segments, with the reference's run.
-/
import proofs.«179598_j41188736369203_2_alg».proof.Defs
import proofs.«179598_j41188736369203_2_alg».proof.Proof.Gen.Kernel
import proofs.«179598_j41188736369203_2_alg».proof.Proof.Gen.Kernel.Skeleton
import proofs.«179598_j41188736369203_2_alg».proof.Proof.Gen.Kernel.Launch
import proofs.«179598_j41188736369203_2_alg».proof.Proof.Gen.Kernel.Points
import proofs.«179598_j41188736369203_2_alg».proof.Proof.Gen.Kernel.Frame
import proofs.«179598_j41188736369203_2_alg».proof.Proof.Gen.KernelIdeal
import proofs.«179598_j41188736369203_2_alg».proof.Proof.Gen.KernelIdeal.Skeleton
import proofs.«179598_j41188736369203_2_alg».proof.Proof.Gen.KernelIdeal.Launch
import proofs.«179598_j41188736369203_2_alg».proof.Proof.Gen.KernelIdeal.Points
import proofs.«179598_j41188736369203_2_alg».proof.Proof.Gen.KernelIdeal.Frame
import proofs.«179598_j41188736369203_2_alg».proof.Proof.Gen.ReferenceIdeal
import proofs.«179598_j41188736369203_2_alg».proof.Proof.Gen.Pre_finite_inputs
import proofs.«179598_j41188736369203_2_alg».proof.Proof.Gen.ReferenceIdeal.Run
import proofs.«179598_j41188736369203_2_alg».proof.Proof.Gen.ReferenceIdeal.Read
import proofs.«179598_j41188736369203_2_alg».proof.Proof.RunMain
import proofs.«179598_j41188736369203_2_alg».proof.Proof.Aggregate
import proofs.«179598_j41188736369203_2_alg».proof.Proof.Bridge
import proofs.«179598_j41188736369203_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the kernel's value function of the arguments:
    the kernel by its run read at the last boundary, the reference by its run and the bridge, which uses that the rows
    and `Wl` are real. -/
theorem algebraic : Cert.algebraic_KernelIdeal_ReferenceIdeal := by
  intro m ρ m' ρ' hpre hagree
  refine ⟨_, (θ_run Cert.KernelIdeal.defs _ _).mono (fun r h c => ⟨(h c).1.trans (Cert.KernelIdeal.Aggregate.value m ρ c), (h c).2⟩)
    (Cert.KernelIdeal.RunValue.run_main (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨hx, hw⟩ := Cert.Finite.reals_of_pre _ _ _ _ _ (hpre c)
  rw [Cert.ReferenceIdeal.Read.val_main_v29_eq, (hagree c).1, (hagree c).2.1, (hagree c).2.2.1, (hagree c).2.2.2.1, (hagree c).2.2.2.2]
  exact Cert.Bridge.value_eq _ _ _ _ _ hx hw

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
